-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2097152x20 : Shape := ⟨2, ![2097152, 20]⟩
abbrev S1x80 : Shape := ⟨2, ![1, 80]⟩
abbrev S20x80 : Shape := ⟨2, ![20, 80]⟩
abbrev S80 : Shape := ⟨1, ![80]⟩
abbrev S20x1 : Shape := ⟨2, ![20, 1]⟩
abbrev S1 : Shape := ⟨1, ![1]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2097152x20 : S_.BroadcastsInDim S2097152x20 (![] : Fin 0 → Fin S2097152x20.rank)
  reducesTo_S2097152x20_S_d0_1 : S2097152x20.ReducesTo [0, 1] S_
  bcast_S_S1x80 : S_.BroadcastsInDim S1x80 (![] : Fin 0 → Fin S1x80.rank)
  reducesTo_S1x80_S_d0_1 : S1x80.ReducesTo [0, 1] S_
  bcast_S_S20x80 : S_.BroadcastsInDim S20x80 (![] : Fin 0 → Fin S20x80.rank)
  reducesTo_S20x80_S_d0_1 : S20x80.ReducesTo [0, 1] S_
  bcast_S_S80 : S_.BroadcastsInDim S80 (![] : Fin 0 → Fin S80.rank)
  reducesTo_S80_S_d0 : S80.ReducesTo [0] S_
  bcast_S_S20x1 : S_.BroadcastsInDim S20x1 (![] : Fin 0 → Fin S20x1.rank)
  reducesTo_S20x1_S_d0_1 : S20x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S20x1 .f32) (main_arg12 : FVec F S1 .f32) (main_v48 : IVec S_ 1) (main_v49 : FVec F S80 .f32) (main_v50 : FVec F S80 .f32) : IVec S_ 1 :=
  let main_v51 : IVec S80 1 := cmpf .olt main_v49 main_v50
  let main_c_19 : IVec S_ 1 := constantI S_ 1 1#1
  let main_v52 : IVec S_ 1 := (fun x v => Host.reduce IntOp.andi x v reducesTo_S80_S_d0 h_S_) main_v51 main_c_19
  let main_v53 : IVec S_ 1 := andi main_v48 main_v52
  let main_v54 : FVec F S20x1 .f32 := Host.absf main_arg11
  let main_cst_20 : FVec F S_ .f32 := constant S_ .f32 0x7F800000#32
  let main_v55 : FVec F S20x1 .f32 := broadcastInDim S20x1 ![] bcast_S_S20x1 main_cst_20
  let main_v56 : IVec S20x1 1 := cmpf .olt main_v54 main_v55
  let main_c_21 : IVec S_ 1 := constantI S_ 1 1#1
  let main_v57 : IVec S_ 1 := (fun x v => Host.reduce IntOp.andi x v reducesTo_S20x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S80 .f32) (main_arg8 : FVec F S20x80 .f32) (main_arg9 : FVec F S20x80 .f32) (main_arg10 : FVec F S80 .f32) (main_arg11 : FVec F S20x1 .f32) (main_arg12 : FVec F S1 .f32) (main_v33 : IVec S_ 1) : IVec S_ 1 :=
  let main_v34 : FVec F S80 .f32 := Host.absf main_arg7
  let main_cst_12 : FVec F S_ .f32 := constant S_ .f32 0x7F800000#32
  let main_v35 : FVec F S80 .f32 := broadcastInDim S80 ![] bcast_S_S80 main_cst_12
  let main_v36 : IVec S80 1 := cmpf .olt main_v34 main_v35
  let main_c_13 : IVec S_ 1 := constantI S_ 1 1#1
  let main_v37 : IVec S_ 1 := (fun x v => Host.reduce IntOp.andi x v reducesTo_S80_S_d0 h_S_) main_v36 main_c_13
  let main_v38 : IVec S_ 1 := andi main_v33 main_v37
  let main_v39 : FVec F S20x80 .f32 := Host.absf main_arg8
  let main_cst_14 : FVec F S_ .f32 := constant S_ .f32 0x7F800000#32
  let main_v40 : FVec F S20x80 .f32 := broadcastInDim S20x80 ![] bcast_S_S20x80 main_cst_14
  let main_v41 : IVec S20x80 1 := cmpf .olt main_v39 main_v40
  let main_c_15 : IVec S_ 1 := constantI S_ 1 1#1
  let main_v42 : IVec S_ 1 := (fun x v => Host.reduce IntOp.andi x v reducesTo_S20x80_S_d0_1 h_S_) main_v41 main_c_15
  let main_v43 : IVec S_ 1 := andi main_v38 main_v42
  let main_v44 : FVec F S20x80 .f32 := Host.absf main_arg9
  let main_cst_16 : FVec F S_ .f32 := constant S_ .f32 0x7F800000#32
  let main_v45 : FVec F S20x80 .f32 := broadcastInDim S20x80 ![] bcast_S_S20x80 main_cst_16
  let main_v46 : IVec S20x80 1 := cmpf .olt main_v44 main_v45
  let main_c_17 : IVec S_ 1 := constantI S_ 1 1#1
  let main_v47 : IVec S_ 1 := (fun x v => Host.reduce IntOp.andi x v reducesTo_S20x80_S_d0_1 h_S_) main_v46 main_c_17
  let main_v48 : IVec S_ 1 := andi main_v43 main_v47
  let main_v49 : FVec F S80 .f32 := Host.absf main_arg10
  let main_cst_18 : FVec F S_ .f32 := constant S_ .f32 0x7F800000#32
  let main_v50 : FVec F S80 .f32 := broadcastInDim S80 ![] bcast_S_S80 main_cst_18
  fn_part3 (F := F) main_arg11 main_arg12 main_v48 main_v49 main_v50

def fn_part1 {F : FTy → Type} [FloatOps F] (main_arg4 : FVec F S2097152x20 .f32) (main_arg5 : FVec F S1x80 .f32) (main_arg6 : FVec F S20x80 .f32) (main_arg7 : FVec F S80 .f32) (main_arg8 : FVec F S20x80 .f32) (main_arg9 : FVec F S20x80 .f32) (main_arg10 : FVec F S80 .f32) (main_arg11 : FVec F S20x1 .f32) (main_arg12 : FVec F S1 .f32) (main_v13 : IVec S_ 1) (main_v16 : IVec S2097152x20 1) : IVec S_ 1 :=
  let main_c_5 : IVec S_ 1 := constantI S_ 1 1#1
  let main_v17 : IVec S_ 1 := (fun x v => Host.reduce IntOp.andi x v reducesTo_S2097152x20_S_d0_1 h_S_) main_v16 main_c_5
  let main_v18 : IVec S_ 1 := andi main_v13 main_v17
  let main_v19 : FVec F S2097152x20 .f32 := Host.absf main_arg4
  let main_cst_6 : FVec F S_ .f32 := constant S_ .f32 0x7F800000#32
  let main_v20 : FVec F S2097152x20 .f32 := broadcastInDim S2097152x20 ![] bcast_S_S2097152x20 main_cst_6
  let main_v21 : IVec S2097152x20 1 := cmpf .olt main_v19 main_v20
  let main_c_7 : IVec S_ 1 := constantI S_ 1 1#1
  let main_v22 : IVec S_ 1 := (fun x v => Host.reduce IntOp.andi x v reducesTo_S2097152x20_S_d0_1 h_S_) main_v21 main_c_7
  let main_v23 : IVec S_ 1 := andi main_v18 main_v22
  let main_v24 : FVec F S1x80 .f32 := Host.absf main_arg5
  let main_cst_8 : FVec F S_ .f32 := constant S_ .f32 0x7F800000#32
  let main_v25 : FVec F S1x80 .f32 := broadcastInDim S1x80 ![] bcast_S_S1x80 main_cst_8
  let main_v26 : IVec S1x80 1 := cmpf .olt main_v24 main_v25
  let main_c_9 : IVec S_ 1 := constantI S_ 1 1#1
  let main_v27 : IVec S_ 1 := (fun x v => Host.reduce IntOp.andi x v reducesTo_S1x80_S_d0_1 h_S_) main_v26 main_c_9
  let main_v28 : IVec S_ 1 := andi main_v23 main_v27
  let main_v29 : FVec F S20x80 .f32 := Host.absf main_arg6
  let main_cst_10 : FVec F S_ .f32 := constant S_ .f32 0x7F800000#32
  let main_v30 : FVec F S20x80 .f32 := broadcastInDim S20x80 ![] bcast_S_S20x80 main_cst_10
  let main_v31 : IVec S20x80 1 := cmpf .olt main_v29 main_v30
  let main_c_11 : IVec S_ 1 := constantI S_ 1 1#1
  let main_v32 : IVec S_ 1 := (fun x v => Host.reduce IntOp.andi x v reducesTo_S20x80_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x1024 .f32) (main_arg1 : FVec F S2097152x20 .f32) (main_arg2 : FVec F S2097152x20 .f32) (main_arg3 : FVec F S2097152x20 .f32) (main_arg4 : FVec F S2097152x20 .f32) (main_arg5 : FVec F S1x80 .f32) (main_arg6 : FVec F S20x80 .f32) (main_arg7 : FVec F S80 .f32) (main_arg8 : FVec F S20x80 .f32) (main_arg9 : FVec F S20x80 .f32) (main_arg10 : FVec F S80 .f32) (main_arg11 : FVec F S20x1 .f32) (main_arg12 : FVec F S1 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2097152x20 .f32 := Host.absf main_arg1
  let main_cst_0 : FVec F S_ .f32 := constant S_ .f32 0x7F800000#32
  let main_v5 : FVec F S2097152x20 .f32 := broadcastInDim S2097152x20 ![] bcast_S_S2097152x20 main_cst_0
  let main_v6 : IVec S2097152x20 1 := cmpf .olt main_v4 main_v5
  let main_c_1 : IVec S_ 1 := constantI S_ 1 1#1
  let main_v7 : IVec S_ 1 := (fun x v => Host.reduce IntOp.andi x v reducesTo_S2097152x20_S_d0_1 h_S_) main_v6 main_c_1
  let main_v8 : IVec S_ 1 := andi main_v3 main_v7
  let main_v9 : FVec F S2097152x20 .f32 := Host.absf main_arg2
  let main_cst_2 : FVec F S_ .f32 := constant S_ .f32 0x7F800000#32
  let main_v10 : FVec F S2097152x20 .f32 := broadcastInDim S2097152x20 ![] bcast_S_S2097152x20 main_cst_2
  let main_v11 : IVec S2097152x20 1 := cmpf .olt main_v9 main_v10
  let main_c_3 : IVec S_ 1 := constantI S_ 1 1#1
  let main_v12 : IVec S_ 1 := (fun x v => Host.reduce IntOp.andi x v reducesTo_S2097152x20_S_d0_1 h_S_) main_v11 main_c_3
  let main_v13 : IVec S_ 1 := andi main_v8 main_v12
  let main_v14 : FVec F S2097152x20 .f32 := Host.absf main_arg3
  let main_cst_4 : FVec F S_ .f32 := constant S_ .f32 0x7F800000#32
  let main_v15 : FVec F S2097152x20 .f32 := broadcastInDim S2097152x20 ![] bcast_S_S2097152x20 main_cst_4
  let main_v16 : IVec S2097152x20 1 := cmpf .olt main_v14 main_v15
  fn_part1 (F := F) main_arg4 main_arg5 main_arg6 main_arg7 main_arg8 main_arg9 main_arg10 main_arg11 main_arg12 main_v13 main_v16
-- ==== Kernel.lean ====
abbrev S2048x1024 : Shape := ⟨2, ![2048, 1024]⟩
abbrev S2097152x20 : Shape := ⟨2, ![2097152, 20]⟩
abbrev S1x80 : Shape := ⟨2, ![1, 80]⟩
abbrev S20x80 : Shape := ⟨2, ![20, 80]⟩
abbrev S80 : Shape := ⟨1, ![80]⟩
abbrev S20x1 : Shape := ⟨2, ![20, 1]⟩
abbrev S1 : Shape := ⟨1, ![1]⟩
abbrev S2097152x1 : Shape := ⟨2, ![2097152, 1]⟩
abbrev S1x1 : Shape := ⟨2, ![1, 1]⟩
abbrev S2048x1 : Shape := ⟨2, ![2048, 1]⟩
abbrev S2048x20 : Shape := ⟨2, ![2048, 20]⟩
abbrev S2048x80 : Shape := ⟨2, ![2048, 80]⟩

abbrev nBuf : Space → Nat
  | .hbm => 23
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2097152x20, .f32⟩
  | .hbm, ⟨2, _⟩ => ⟨S2097152x20, .f32⟩
  | .hbm, ⟨3, _⟩ => ⟨S2097152x20, .f32⟩
  | .hbm, ⟨4, _⟩ => ⟨S2097152x20, .f32⟩
  | .hbm, ⟨5, _⟩ => ⟨S1x80, .f32⟩
  | .hbm, ⟨6, _⟩ => ⟨S20x80, .f32⟩
  | .hbm, ⟨7, _⟩ => ⟨S80, .f32⟩
  | .hbm, ⟨8, _⟩ => ⟨S20x80, .f32⟩
  | .hbm, ⟨9, _⟩ => ⟨S20x80, .f32⟩
  | .hbm, ⟨10, _⟩ => ⟨S80, .f32⟩
  | .hbm, ⟨11, _⟩ => ⟨S20x1, .f32⟩
  | .hbm, ⟨12, _⟩ => ⟨S1, .f32⟩
  | .hbm, ⟨13, _⟩ => ⟨S2097152x1, .f32⟩
  | .hbm, ⟨14, _⟩ => ⟨S1x80, .f32⟩
  | .hbm, ⟨15, _⟩ => ⟨S1x80, .f32⟩
  | .hbm, ⟨16, _⟩ => ⟨S1x1, .f32⟩
  | .hbm, ⟨17, _⟩ => ⟨S2097152x1, .f32⟩
  | .hbm, ⟨18, _⟩ => ⟨S2097152x20, .f32⟩
  | .hbm, ⟨19, _⟩ => ⟨S2097152x20, .f32⟩
  | .hbm, ⟨20, _⟩ => ⟨S2097152x20, .f32⟩
  | .hbm, ⟨21, _⟩ => ⟨S2097152x20, .f32⟩
  | .hbm, ⟨22, _⟩ => ⟨S2048x1024, .f32⟩
  | .local _ .vmem, ⟨0, _⟩ => ⟨S2048x1, .f32⟩
  | .local _ .vmem, ⟨1, _⟩ => ⟨S2048x1, .f32⟩
  | .local _ .vmem, ⟨2, _⟩ => ⟨S2048x20, .f32⟩
  | .local _ .vmem, ⟨3, _⟩ => ⟨S2048x20, .f32⟩
  | .local _ .vmem, ⟨4, _⟩ => ⟨S2048x20, .f32⟩
  | .local _ .vmem, ⟨5, _⟩ => ⟨S2048x20, .f32⟩
  | .local _ .vmem, ⟨6, _⟩ => ⟨S2048x20, .f32⟩
  | .local _ .vmem, ⟨7, _⟩ => ⟨S2048x20, .f32⟩
  | .local _ .vmem, ⟨8, _⟩ => ⟨S2048x20, .f32⟩
  | .local _ .vmem, ⟨9, _⟩ => ⟨S2048x20, .f32⟩
  | .local _ .vmem, ⟨10, _⟩ => ⟨S1x80, .f32⟩
  | .local _ .vmem, ⟨11, _⟩ => ⟨S20x80, .f32⟩
  | .local _ .vmem, ⟨12, _⟩ => ⟨S1x80, .f32⟩
  | .local _ .vmem, ⟨13, _⟩ => ⟨S20x80, .f32⟩
  | .local _ .vmem, ⟨14, _⟩ => ⟨S20x80, .f32⟩
  | .local _ .vmem, ⟨15, _⟩ => ⟨S1x80, .f32⟩
  | .local _ .vmem, ⟨16, _⟩ => ⟨S20x1, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | .local _ .vmem, ⟨20, _⟩ => ⟨S2048x20, .f32⟩
  | .local _ .vmem, ⟨21, _⟩ => ⟨S2048x20, .f32⟩
  | .local _ .vmem, ⟨22, _⟩ => ⟨S2048x20, .f32⟩
  | .local _ .vmem, ⟨23, _⟩ => ⟨S2048x20, .f32⟩
  | .local _ .vmem, ⟨24, _⟩ => ⟨S2048x20, .f32⟩
  | .local _ .vmem, ⟨25, _⟩ => ⟨S2048x20, .f32⟩
  | .local _ .vmem, ⟨26, _⟩ => ⟨S2048x20, .f32⟩
  | .local _ .vmem, ⟨27, _⟩ => ⟨S2048x20, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S20x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x80 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x80 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x20 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x20 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x20 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x20 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S2048x1024_S2097152x1 : S2048x1024.ShapeCasts S2097152x1
  shapeCasts_S80_S1x80 : S80.ShapeCasts S1x80
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x20_S2048x20_0_0 : ∀ a, (![0, 0] : Fin 2 → Nat) a + S2048x20.size a ≤ S2048x20.size a
  h_S2048x20 : 0 < S2048x20.numel
  inb_S1x80_S1x80_0_0 : ∀ a, (![0, 0] : Fin 2 → Nat) a + S1x80.size a ≤ S1x80.size a
  h_S1x80 : 0 < S1x80.numel
  inb_S20x80_S20x80_0_0 : ∀ a, (![0, 0] : Fin 2 → Nat) a + S20x80.size a ≤ S20x80.size a
  h_S20x80 : 0 < S20x80.numel
  bitsLt_bf16_f32 : FTy.bits .bf16 < FTy.bits .f32
  shapeCasts_S1x80_S1x80 : S1x80.ShapeCasts S1x80
  inb_S20x1_S20x1_0_0 : ∀ a, (![0, 0] : Fin 2 → Nat) a + S20x1.size a ≤ S20x1.size a
  h_S20x1 : 0 < S20x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S2048x1_S2048x80 : S2048x1.Broadcasts S2048x80
  broadcasts_S1x80_S2048x80 : S1x80.Broadcasts S2048x80
  slices_S2048x80_o0_0_S2048x20 : S2048x80.Slices ![0, 0] S2048x20
  slices_S2048x80_o0_20_S2048x20 : S2048x80.Slices ![0, 20] S2048x20
  slices_S2048x80_o0_40_S2048x20 : S2048x80.Slices ![0, 40] S2048x20
  slices_S2048x80_o0_60_S2048x20 : S2048x80.Slices ![0, 60] S2048x20
  broadcasts_S1x1_S2048x1 : S1x1.Broadcasts S2048x1
  shapeCasts_S2097152x1_S2048x1024 : S2097152x1.ShapeCasts S2048x1024
  dot_S2048x20_S20x80_S2048x80_1_0_0_1_n_n_wf : DotDims.WF S2048x20 S20x80 S2048x80 [1] [0] [0] [1] [] []
  dot_S2048x20_S20x1_S2048x1_1_0_0_1_n_n_wf : DotDims.WF S2048x20 S20x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S2097152x1.size a
  hwx0_0 : ∀ i : grid0.Coords, EltTy.bits .f32 = 32 ∨ (Rect.block (s := S2097152x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x20.size a ≤ S2097152x20.size a
  hwx0_1 : ∀ i : grid0.Coords, EltTy.bits .f32 = 32 ∨ (Rect.block (s := S2097152x20) S2048x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x20.size a ≤ S2097152x20.size a
  hwx0_2 : ∀ i : grid0.Coords, EltTy.bits .f32 = 32 ∨ (Rect.block (s := S2097152x20) S2048x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x20.size a ≤ S2097152x20.size a
  hwx0_3 : ∀ i : grid0.Coords, EltTy.bits .f32 = 32 ∨ (Rect.block (s := S2097152x20) S2048x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x20.size a ≤ S2097152x20.size a
  hwx0_4 : ∀ i : grid0.Coords, EltTy.bits .f32 = 32 ∨ (Rect.block (s := S2097152x20) S2048x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x80.size a ≤ S1x80.size a
  hwx0_5 : ∀ i : grid0.Coords, EltTy.bits .f32 = 32 ∨ (Rect.block (s := S1x80) S1x80.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x80.size a ≤ S20x80.size a
  hwx0_6 : ∀ i : grid0.Coords, EltTy.bits .f32 = 32 ∨ (Rect.block (s := S20x80) S20x80.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x80.size a ≤ S1x80.size a
  hwx0_7 : ∀ i : grid0.Coords, EltTy.bits .f32 = 32 ∨ (Rect.block (s := S1x80) S1x80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S20x80.size a ≤ S20x80.size a
  hwx0_8 : ∀ i : grid0.Coords, EltTy.bits .f32 = 32 ∨ (Rect.block (s := S20x80) S20x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x80.size a ≤ S20x80.size a
  hwx0_9 : ∀ i : grid0.Coords, EltTy.bits .f32 = 32 ∨ (Rect.block (s := S20x80) S20x80.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x80.size a ≤ S1x80.size a
  hwx0_10 : ∀ i : grid0.Coords, EltTy.bits .f32 = 32 ∨ (Rect.block (s := S1x80) S1x80.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S20x1.size a ≤ S20x1.size a
  hwx0_11 : ∀ i : grid0.Coords, EltTy.bits .f32 = 32 ∨ (Rect.block (s := S20x1) S20x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S2097152x1.size a
  hwx0_13 : ∀ i : grid0.Coords, EltTy.bits .f32 = 32 ∨ (Rect.block (s := S2097152x1) S2048x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x20.size a ≤ S2097152x20.size a
  hwx0_14 : ∀ i : grid0.Coords, EltTy.bits .f32 = 32 ∨ (Rect.block (s := S2097152x20) S2048x20.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x20.size a ≤ S2097152x20.size a
  hwx0_15 : ∀ i : grid0.Coords, EltTy.bits .f32 = 32 ∨ (Rect.block (s := S2097152x20) S2048x20.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x20.size a ≤ S2097152x20.size a
  hwx0_16 : ∀ i : grid0.Coords, EltTy.bits .f32 = 32 ∨ (Rect.block (s := S2097152x20) S2048x20.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x20.size a ≤ S2097152x20.size a
  hwx0_17 : ∀ i : grid0.Coords, EltTy.bits .f32 = 32 ∨ (Rect.block (s := S2097152x20) S2048x20.size (cc0_transform_17 i) (hinb0_17 i)).WholeWords (EltTy.packing .f32)

variable [Facts₀]

def dot_S2048x20_S20x80_S2048x80_1_0_0_1_n_n : DotDims S2048x20 S20x80 S2048x80 where
  lhsContracting := [1]
  rhsContracting := [0]
  lhsNonContracting := [0]
  rhsNonContracting := [1]
  lhsBatch := []
  rhsBatch := []
  wf := dot_S2048x20_S20x80_S2048x80_1_0_0_1_n_n_wf
def dot_S2048x20_S20x1_S2048x1_1_0_0_1_n_n : DotDims S2048x20 S20x1 S2048x1 where
  lhsContracting := [1]
  rhsContracting := [0]
  lhsNonContracting := [0]
  rhsNonContracting := [1]
  lhsBatch := []
  rhsBatch := []
  wf := dot_S2048x20_S20x1_S2048x1_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x20.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S20x80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S20x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S20x80.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x80.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S20x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4_0) S2048x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_1) S2048x20.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_2) S2048x20.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_3) S2048x20.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v4_4) S2048x20.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2097152x20 : Shape := ⟨2, ![2097152, 20]⟩
abbrev S1x80 : Shape := ⟨2, ![1, 80]⟩
abbrev S20x80 : Shape := ⟨2, ![20, 80]⟩
abbrev S80 : Shape := ⟨1, ![80]⟩
abbrev S20x1 : Shape := ⟨2, ![20, 1]⟩
abbrev S1 : Shape := ⟨1, ![1]⟩
abbrev S2097152x1 : Shape := ⟨2, ![2097152, 1]⟩
abbrev S2097152x80 : Shape := ⟨2, ![2097152, 80]⟩
abbrev S_ : Shape := ⟨0, ![]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2097152x20, .f32⟩
  | .hbm, ⟨2, _⟩ => ⟨S2097152x20, .f32⟩
  | .hbm, ⟨3, _⟩ => ⟨S2097152x20, .f32⟩
  | .hbm, ⟨4, _⟩ => ⟨S2097152x20, .f32⟩
  | .hbm, ⟨5, _⟩ => ⟨S1x80, .f32⟩
  | .hbm, ⟨6, _⟩ => ⟨S20x80, .f32⟩
  | .hbm, ⟨7, _⟩ => ⟨S80, .f32⟩
  | .hbm, ⟨8, _⟩ => ⟨S20x80, .f32⟩
  | .hbm, ⟨9, _⟩ => ⟨S20x80, .f32⟩
  | .hbm, ⟨10, _⟩ => ⟨S80, .f32⟩
  | .hbm, ⟨11, _⟩ => ⟨S20x1, .f32⟩
  | .hbm, ⟨12, _⟩ => ⟨S1, .f32⟩
  | .hbm, ⟨13, _⟩ => ⟨S2097152x1, .f32⟩
  | .hbm, ⟨14, _⟩ => ⟨S2097152x80, .f32⟩
  | .hbm, ⟨15, _⟩ => ⟨S2097152x80, .f32⟩
  | .hbm, ⟨16, _⟩ => ⟨S2097152x80, .f32⟩
  | .hbm, ⟨17, _⟩ => ⟨S1x80, .f32⟩
  | .hbm, ⟨18, _⟩ => ⟨S2097152x80, .f32⟩
  | .hbm, ⟨19, _⟩ => ⟨S2097152x80, .f32⟩
  | .hbm, ⟨20, _⟩ => ⟨S2097152x20, .f32⟩
  | .hbm, ⟨21, _⟩ => ⟨S2097152x20, .f32⟩
  | .hbm, ⟨22, _⟩ => ⟨S2097152x20, .f32⟩
  | .hbm, ⟨23, _⟩ => ⟨S_, .f32⟩
  | .hbm, ⟨24, _⟩ => ⟨S2097152x20, .f32⟩
  | .hbm, ⟨25, _⟩ => ⟨S2097152x20, .f32⟩
  | .hbm, ⟨26, _⟩ => ⟨S_, .f32⟩
  | .hbm, ⟨27, _⟩ => ⟨S2097152x20, .f32⟩
  | .hbm, ⟨28, _⟩ => ⟨S2097152x20, .f32⟩
  | .hbm, ⟨29, _⟩ => ⟨S2097152x20, .f32⟩
  | .hbm, ⟨30, _⟩ => ⟨S2097152x20, .f32⟩
  | .hbm, ⟨31, _⟩ => ⟨S2097152x20, .f32⟩
  | .hbm, ⟨32, _⟩ => ⟨S_, .f32⟩
  | .hbm, ⟨33, _⟩ => ⟨S2097152x20, .f32⟩
  | .hbm, ⟨34, _⟩ => ⟨S2097152x20, .f32⟩
  | .hbm, ⟨35, _⟩ => ⟨S_, .f32⟩
  | .hbm, ⟨36, _⟩ => ⟨S2097152x20, .f32⟩
  | .hbm, ⟨37, _⟩ => ⟨S2097152x20, .f32⟩
  | .hbm, ⟨38, _⟩ => ⟨S2097152x20, .f32⟩
  | .hbm, ⟨39, _⟩ => ⟨S2097152x20, .f32⟩
  | .hbm, ⟨40, _⟩ => ⟨S2097152x20, .f32⟩
  | .hbm, ⟨41, _⟩ => ⟨S2097152x20, .f32⟩
  | .hbm, ⟨42, _⟩ => ⟨S2097152x20, .f32⟩
  | .hbm, ⟨43, _⟩ => ⟨S_, .f32⟩
  | .hbm, ⟨44, _⟩ => ⟨S2097152x20, .f32⟩
  | .hbm, ⟨45, _⟩ => ⟨S2097152x20, .f32⟩
  | .hbm, ⟨46, _⟩ => ⟨S_, .f32⟩
  | .hbm, ⟨47, _⟩ => ⟨S2097152x20, .f32⟩
  | .hbm, ⟨48, _⟩ => ⟨S2097152x20, .f32⟩
  | .hbm, ⟨49, _⟩ => ⟨S2097152x20, .f32⟩
  | .hbm, ⟨50, _⟩ => ⟨S2097152x20, .f32⟩
  | .hbm, ⟨51, _⟩ => ⟨S2097152x20, .f32⟩
  | .hbm, ⟨52, _⟩ => ⟨S2097152x20, .f32⟩
  | .hbm, ⟨53, _⟩ => ⟨S2097152x20, .f32⟩
  | .hbm, ⟨54, _⟩ => ⟨S2097152x80, .f32⟩
  | .hbm, ⟨55, _⟩ => ⟨S2097152x80, .f32⟩
  | .hbm, ⟨56, _⟩ => ⟨S2097152x80, .f32⟩
  | .hbm, ⟨57, _⟩ => ⟨S1x80, .f32⟩
  | .hbm, ⟨58, _⟩ => ⟨S2097152x80, .f32⟩
  | .hbm, ⟨59, _⟩ => ⟨S2097152x80, .f32⟩
  | .hbm, ⟨60, _⟩ => ⟨S2097152x20, .f32⟩
  | .hbm, ⟨61, _⟩ => ⟨S2097152x20, .f32⟩
  | .hbm, ⟨62, _⟩ => ⟨S2097152x20, .f32⟩
  | .hbm, ⟨63, _⟩ => ⟨S_, .f32⟩
  | .hbm, ⟨64, _⟩ => ⟨S2097152x20, .f32⟩
  | .hbm, ⟨65, _⟩ => ⟨S2097152x20, .f32⟩
  | .hbm, ⟨66, _⟩ => ⟨S_, .f32⟩
  | .hbm, ⟨67, _⟩ => ⟨S2097152x20, .f32⟩
  | .hbm, ⟨68, _⟩ => ⟨S2097152x20, .f32⟩
  | .hbm, ⟨69, _⟩ => ⟨S2097152x20, .f32⟩
  | .hbm, ⟨70, _⟩ => ⟨S2097152x20, .f32⟩
  | .hbm, ⟨71, _⟩ => ⟨S2097152x20, .f32⟩
  | .hbm, ⟨72, _⟩ => ⟨S_, .f32⟩
  | .hbm, ⟨73, _⟩ => ⟨S2097152x20, .f32⟩
  | .hbm, ⟨74, _⟩ => ⟨S2097152x20, .f32⟩
  | .hbm, ⟨75, _⟩ => ⟨S_, .f32⟩
  | .hbm, ⟨76, _⟩ => ⟨S2097152x20, .f32⟩
  | .hbm, ⟨77, _⟩ => ⟨S2097152x20, .f32⟩
  | .hbm, ⟨78, _⟩ => ⟨S2097152x20, .f32⟩
  | .hbm, ⟨79, _⟩ => ⟨S2097152x20, .f32⟩
  | .hbm, ⟨80, _⟩ => ⟨S2097152x20, .f32⟩
  | .hbm, ⟨81, _⟩ => ⟨S2097152x20, .f32⟩
  | .hbm, ⟨82, _⟩ => ⟨S2097152x20, .f32⟩
  | .hbm, ⟨83, _⟩ => ⟨S_, .f32⟩
  | .hbm, ⟨84, _⟩ => ⟨S2097152x20, .f32⟩
  | .hbm, ⟨85, _⟩ => ⟨S2097152x20, .f32⟩
  | .hbm, ⟨86, _⟩ => ⟨S_, .f32⟩
  | .hbm, ⟨87, _⟩ => ⟨S2097152x20, .f32⟩
  | .hbm, ⟨88, _⟩ => ⟨S2097152x20, .f32⟩
  | .hbm, ⟨89, _⟩ => ⟨S2097152x20, .f32⟩
  | .hbm, ⟨90, _⟩ => ⟨S2097152x20, .f32⟩
  | .hbm, ⟨91, _⟩ => ⟨S2097152x20, .f32⟩
  | .hbm, ⟨92, _⟩ => ⟨S2097152x20, .f32⟩
  | .hbm, ⟨93, _⟩ => ⟨S2097152x20, .f32⟩
  | .hbm, ⟨94, _⟩ => ⟨S2097152x1, .f32⟩
  | .hbm, ⟨95, _⟩ => ⟨S1x1, .f32⟩
  | .hbm, ⟨96, _⟩ => ⟨S2097152x1, .f32⟩
  | .hbm, ⟨97, _⟩ => ⟨S2097152x1, .f32⟩
  | .hbm, ⟨98, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  shapeCasts_S2048x1024_S2097152x1 : S2048x1024.ShapeCasts S2097152x1
  bcast_S80_S1x80_1 : S80.BroadcastsInDim S1x80 (![1] : Fin 1 → Fin S1x80.rank)
  bcast_S1x80_S2097152x80_0_1 : S1x80.BroadcastsInDim S2097152x80 (![0, 1] : Fin 2 → Fin S2097152x80.rank)
  slices_S2097152x80_S2097152x20_0_0 : S2097152x80.Slices ![0, 0] S2097152x20
  bcast_S_S2097152x20 : S_.BroadcastsInDim S2097152x20 (![] : Fin 0 → Fin S2097152x20.rank)
  slices_S2097152x80_S2097152x20_0_20 : S2097152x80.Slices ![0, 20] S2097152x20
  slices_S2097152x80_S2097152x20_0_40 : S2097152x80.Slices ![0, 40] S2097152x20
  slices_S2097152x80_S2097152x20_0_60 : S2097152x80.Slices ![0, 60] S2097152x20
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  shapeCasts_S2097152x1_S2048x1024 : S2097152x1.ShapeCasts S2048x1024
  dot_S2097152x1_S1x80_S2097152x80_1_0_0_1_n_n_wf : DotDims.WF S2097152x1 S1x80 S2097152x80 [1] [0] [0] [1] [] []
  dot_S2097152x20_S20x80_S2097152x80_1_0_0_1_n_n_wf : DotDims.WF S2097152x20 S20x80 S2097152x80 [1] [0] [0] [1] [] []
  dot_S2097152x20_S20x1_S2097152x1_1_0_0_1_n_n_wf : DotDims.WF S2097152x20 S20x1 S2097152x1 [1] [0] [0] [1] [] []

variable [Facts₀]

def dot_S2097152x1_S1x80_S2097152x80_1_0_0_1_n_n : DotDims S2097152x1 S1x80 S2097152x80 where
  lhsContracting := [1]
  rhsContracting := [0]
  lhsNonContracting := [0]
  rhsNonContracting := [1]
  lhsBatch := []
  rhsBatch := []
  wf := dot_S2097152x1_S1x80_S2097152x80_1_0_0_1_n_n_wf
def dot_S2097152x20_S20x80_S2097152x80_1_0_0_1_n_n : DotDims S2097152x20 S20x80 S2097152x80 where
  lhsContracting := [1]
  rhsContracting := [0]
  lhsNonContracting := [0]
  rhsNonContracting := [1]
  lhsBatch := []
  rhsBatch := []
  wf := dot_S2097152x20_S20x80_S2097152x80_1_0_0_1_n_n_wf
def dot_S2097152x20_S20x1_S2097152x1_1_0_0_1_n_n : DotDims S2097152x20 S20x1 S2097152x1 where
  lhsContracting := [1]
  rhsContracting := [0]
  lhsNonContracting := [0]
  rhsNonContracting := [1]
  lhsBatch := []
  rhsBatch := []
  wf := dot_S2097152x20_S20x1_S2097152x1_1_0_0_1_n_n_wf

class Facts : Prop extends Facts₀ where

variable [Facts]
-- ==== Proof.Spec.lean ====
/-
  One row of the batch through two stacked LSTM cells and a dense head, over the extended reals.

  A cell takes an 80-wide pre-activation  z q = (xw q + Σ_k h k · U k q) + b q  whose four 20-wide column groups are the
  input, forget, candidate and output gates, and returns
      c' j = σ(z (20 + j)) · c j + σ(z j) · tanh(z (40 + j)),      h' j = σ(z (60 + j)) · tanh(c' j),
  with σ the logistic function 1 / (1 + e^(-x)).  The first cell's input term is the row's scalar feature times one weight
  row; the second cell's is the first cell's new hidden state times a weight matrix; the head is one more inner product
  plus a bias.  Every sum runs over the 20 hidden units; nothing here needs the entries to be finite.

  The arrays of the two programs are read into this row form by `weightsOf` and `rowOf`, and the five result arrays
  are stated once, as functions of the argument arrays (`arrOut`, `arrH0`, `arrC0`, `arrH1`, `arrC1`).
-/
import Idealize.ShloMosaic.PureOps.Ideal
import Idealize.ShloMosaic.Lib.ValueIdx

noncomputable section

namespace Cert.Lstm

open Idealize.ShloMosaic Idealize.ShloMosaic.ValueIdx

/-- The column of each gate's unit `j` inside an 80-wide pre-activation: input, forget, candidate, output. -/
def colI (j : Fin 20) : Fin 80 := ⟨j.val, by have := j.isLt; omega⟩
def colF (j : Fin 20) : Fin 80 := ⟨20 + j.val, by have := j.isLt; omega⟩
def colG (j : Fin 20) : Fin 80 := ⟨40 + j.val, by have := j.isLt; omega⟩
def colO (j : Fin 20) : Fin 80 := ⟨60 + j.val, by have := j.isLt; omega⟩

/-- A cell's pre-activation: the input term, plus the hidden state times the recurrent weights, plus the bias. -/
def pre (xw : Fin 80 → EReal) (h : Fin 20 → EReal) (U : Fin 20 → Fin 80 → EReal) (b : Fin 80 → EReal) (q : Fin 80) : EReal :=
  (xw q + ∑ k : Fin 20, h k * U k q) + b q

/-- The new cell state: forget gate times the old state plus input gate times the candidate. -/
def newC (z : Fin 80 → EReal) (c : Fin 20 → EReal) (j : Fin 20) : EReal :=
  Ideal.logistic (z (colF j)) * c j + Ideal.logistic (z (colI j)) * Ideal.tanh (z (colG j))

/-- The new hidden state: output gate times tanh of the new cell state. -/
def newH (z : Fin 80 → EReal) (c : Fin 20 → EReal) (j : Fin 20) : EReal :=
  Ideal.logistic (z (colO j)) * Ideal.tanh (newC z c j)

/-- A hidden state times a 20 × 80 weight matrix. -/
def proj (h : Fin 20 → EReal) (W : Fin 20 → Fin 80 → EReal) (q : Fin 80) : EReal := ∑ k : Fin 20, h k * W k q

/-- The dense head: an inner product with one weight column, plus a bias. -/
def head (h : Fin 20 → EReal) (w : Fin 20 → EReal) (b : EReal) : EReal := (∑ k : Fin 20, h k * w k) + b

/-- The weights of the two cells and the head. -/
structure Weights where
  w0 : Fin 80 → EReal
  u0 : Fin 20 → Fin 80 → EReal
  b0 : Fin 80 → EReal
  w1 : Fin 20 → Fin 80 → EReal
  u1 : Fin 20 → Fin 80 → EReal
  b1 : Fin 80 → EReal
  wd : Fin 20 → EReal
  bd : EReal

/-- One row's data: its scalar feature and the two cells' hidden and cell states. -/
structure Row where
  x : EReal
  h0 : Fin 20 → EReal
  c0 : Fin 20 → EReal
  h1 : Fin 20 → EReal
  c1 : Fin 20 → EReal

def z0 (θ : Weights) (r : Row) : Fin 80 → EReal := pre (fun q => r.x * θ.w0 q) r.h0 θ.u0 θ.b0
def c0n (θ : Weights) (r : Row) : Fin 20 → EReal := newC (z0 θ r) r.c0
def h0n (θ : Weights) (r : Row) : Fin 20 → EReal := newH (z0 θ r) r.c0
def z1 (θ : Weights) (r : Row) : Fin 80 → EReal := pre (proj (h0n θ r) θ.w1) r.h1 θ.u1 θ.b1
def c1n (θ : Weights) (r : Row) : Fin 20 → EReal := newC (z1 θ r) r.c1
def h1n (θ : Weights) (r : Row) : Fin 20 → EReal := newH (z1 θ r) r.c1
def out (θ : Weights) (r : Row) : EReal := head (h1n θ r) θ.wd θ.bd

/-! ## Reading the argument arrays -/

abbrev A1x80 := (⟨2, ![1, 80]⟩ : Shape).Idx → EReal
abbrev A20x80 := (⟨2, ![20, 80]⟩ : Shape).Idx → EReal
abbrev A80 := (⟨1, ![80]⟩ : Shape).Idx → EReal
abbrev A20x1 := (⟨2, ![20, 1]⟩ : Shape).Idx → EReal
abbrev A1 := (⟨1, ![1]⟩ : Shape).Idx → EReal
abbrev ANx1 := (⟨2, ![2097152, 1]⟩ : Shape).Idx → EReal
abbrev ANx20 := (⟨2, ![2097152, 20]⟩ : Shape).Idx → EReal

/-- The weights as the argument arrays hold them: the first cell's input weights are a 1 × 80 row, the biases vectors. -/
def weightsOf (W0 : A1x80) (U0 : A20x80) (B0 : A80) (W1 U1 : A20x80) (B1 : A80) (Wd : A20x1) (Bd : A1) : Weights where
  w0 q := W0 (ix2 (0 : Fin 1) q)
  u0 k q := U0 (ix2 k q)
  b0 q := B0 (ix1 q)
  w1 k q := W1 (ix2 k q)
  u1 k q := U1 (ix2 k q)
  b1 q := B1 (ix1 q)
  wd k := Wd (ix2 k (0 : Fin 1))
  bd := Bd (ix1 (0 : Fin 1))

/-- Row `n` of the batch: the feature column's entry and row `n` of each state array. -/
def rowOf (X : ANx1) (H0 C0 H1 C1 : ANx20) (n : Fin 2097152) : Row where
  x := X (ix2 n (0 : Fin 1))
  h0 k := H0 (ix2 n k)
  c0 k := C0 (ix2 n k)
  h1 k := H1 (ix2 n k)
  c1 k := C1 (ix2 n k)

/-! ## The five results as arrays -/

def arrOut (θ : Weights) (X : ANx1) (H0 C0 H1 C1 : ANx20) : ANx1 := fun i => out θ (rowOf X H0 C0 H1 C1 (i 0))
def arrH0 (θ : Weights) (X : ANx1) (H0 C0 H1 C1 : ANx20) : ANx20 := fun i => h0n θ (rowOf X H0 C0 H1 C1 (i 0)) (i 1)
def arrC0 (θ : Weights) (X : ANx1) (H0 C0 H1 C1 : ANx20) : ANx20 := fun i => c0n θ (rowOf X H0 C0 H1 C1 (i 0)) (i 1)
def arrH1 (θ : Weights) (X : ANx1) (H0 C0 H1 C1 : ANx20) : ANx20 := fun i => h1n θ (rowOf X H0 C0 H1 C1 (i 0)) (i 1)
def arrC1 (θ : Weights) (X : ANx1) (H0 C0 H1 C1 : ANx20) : ANx20 := fun i => c1n θ (rowOf X H0 C0 H1 C1 (i 0)) (i 1)

/-- The word `0x3F800000` is the number one. -/
theorem ofBits_one : Ideal.ofBits .f32 0x3F800000#32 = 1 := by
  simp [Ideal.ofBits, Ideal.ieee, -EReal.coe_mul]; norm_num

/-- The expansion of the logistic function into negate, exponential, add one and divide into one IS the logistic function. -/
theorem logistic_expand (x : EReal) :
    Ideal.div (Ideal.ofBits .f32 0x3F800000#32) (Ideal.ofBits .f32 0x3F800000#32 + Ideal.exp (-x)) = Ideal.logistic x := by
  rw [ofBits_one]; rfl

end Cert.Lstm

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Body.lean ====
/-
  The kernel body's arithmetic, read at one entry of a 2048-row block.

  Every value the body stores is a pure term over the blocks it loads (the skeleton's payloads).  Here each payload is read
  at the entry `(p, j)` of its block and identified with the row functions of the specification applied to row `p` of the
  loaded blocks: a matrix product into a zero accumulator is the plain sum over the 20 hidden units, a change of float
  format is the identity, a slice of the 80-wide activation at offset 0 / 20 / 40 / 60 picks a gate's column, a broadcast
  of the feature column or of a bias row reads that column's or row's entry, and applying the logistic function and tanh
  to the whole activation before slicing is the same, entry by entry, as slicing first.
-/
import proofs.«139615_j81449759801976_2_alg».proof.Proof.Gen.KernelIdeal.Skeleton
import proofs.«139615_j81449759801976_2_alg».proof.Proof.Spec
import proofs.«139615_j81449759801976_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Lstm

/-! ## The two matrix products as sums over the hidden units -/

theorem matmul80_apply_lhs0 (i : S2048x80.Idx) (q : dot_S2048x20_S20x80_S2048x80_1_0_0_1_n_n.contr.Idx) : (dot_S2048x20_S20x80_S2048x80_1_0_0_1_n_n.lhsIdx i q 0).val = (i 0).val := by
  unfold DotDims.lhsIdx
  rw [dif_neg (show ¬(0 : Fin S2048x20.rank) ∈ dot_S2048x20_S20x80_S2048x80_1_0_0_1_n_n.lhsBatch by decide), dif_pos (show (0 : Fin S2048x20.rank) ∈ dot_S2048x20_S20x80_S2048x80_1_0_0_1_n_n.lhsNonContracting by decide)]
  rfl
theorem matmul80_apply_rhs1 (i : S2048x80.Idx) (q : dot_S2048x20_S20x80_S2048x80_1_0_0_1_n_n.contr.Idx) : (dot_S2048x20_S20x80_S2048x80_1_0_0_1_n_n.rhsIdx i q 1).val = (i 1).val := by
  unfold DotDims.rhsIdx
  rw [dif_neg (show ¬(1 : Fin S20x80.rank) ∈ dot_S2048x20_S20x80_S2048x80_1_0_0_1_n_n.rhsBatch by decide), dif_pos (show (1 : Fin S20x80.rank) ∈ dot_S2048x20_S20x80_S2048x80_1_0_0_1_n_n.rhsNonContracting by decide)]
  rfl

/-- A [2048, 20] block times a [20, 80] weight matrix into a zero accumulator, at `(p, q)`: the sum over the 20 hidden units. -/
theorem matmul80_apply (l : FVec Ideal S2048x20 .bf16) (r : FVec Ideal S20x80 .bf16) (p : Fin 2048) (q : Fin 80) :
    matmul dot_S2048x20_S20x80_S2048x80_1_0_0_1_n_n none l r (constant (F := Ideal) S2048x80 .f32 0x00000000#32) (ix2 p q)
      = ∑ k : Fin 20, l (ix2 p k) * r (ix2 k q) := by
  simp only [matmul]
  rw [Ideal.matmul_constant_zero_apply, ← Equiv.sum_comp (ValueIdx.contrEquiv1 dot_S2048x20_S20x80_S2048x80_1_0_0_1_n_n 20 rfl rfl).symm]
  refine Finset.sum_congr rfl fun k _ => ?_
  have hk := ValueIdx.contrEquiv1_symm_val dot_S2048x20_S20x80_S2048x80_1_0_0_1_n_n 20 rfl rfl k
  have el : dot_S2048x20_S20x80_S2048x80_1_0_0_1_n_n.lhsIdx (ix2 p q) ((ValueIdx.contrEquiv1 dot_S2048x20_S20x80_S2048x80_1_0_0_1_n_n 20 rfl rfl).symm k) = ix2 p k := funext fun a => Fin.ext (by
    match a with
    | ⟨0, _⟩ => exact matmul80_apply_lhs0 _ _
    | ⟨1, _⟩ => exact (dot_S2048x20_S20x80_S2048x80_1_0_0_1_n_n.lhsIdx_val_of_single rfl _ _).trans hk)
  have er : dot_S2048x20_S20x80_S2048x80_1_0_0_1_n_n.rhsIdx (ix2 p q) ((ValueIdx.contrEquiv1 dot_S2048x20_S20x80_S2048x80_1_0_0_1_n_n 20 rfl rfl).symm k) = ix2 k q := funext fun a => Fin.ext (by
    match a with
    | ⟨0, _⟩ => exact (dot_S2048x20_S20x80_S2048x80_1_0_0_1_n_n.rhsIdx_val_of_single rfl _ _).trans hk
    | ⟨1, _⟩ => exact matmul80_apply_rhs1 _ _)
  rw [el, er]

theorem matmul1_apply_lhs0 (i : S2048x1.Idx) (q : dot_S2048x20_S20x1_S2048x1_1_0_0_1_n_n.contr.Idx) : (dot_S2048x20_S20x1_S2048x1_1_0_0_1_n_n.lhsIdx i q 0).val = (i 0).val := by
  unfold DotDims.lhsIdx
  rw [dif_neg (show ¬(0 : Fin S2048x20.rank) ∈ dot_S2048x20_S20x1_S2048x1_1_0_0_1_n_n.lhsBatch by decide), dif_pos (show (0 : Fin S2048x20.rank) ∈ dot_S2048x20_S20x1_S2048x1_1_0_0_1_n_n.lhsNonContracting by decide)]
  rfl
theorem matmul1_apply_rhs1 (i : S2048x1.Idx) (q : dot_S2048x20_S20x1_S2048x1_1_0_0_1_n_n.contr.Idx) : (dot_S2048x20_S20x1_S2048x1_1_0_0_1_n_n.rhsIdx i q 1).val = (i 1).val := by
  unfold DotDims.rhsIdx
  rw [dif_neg (show ¬(1 : Fin S20x1.rank) ∈ dot_S2048x20_S20x1_S2048x1_1_0_0_1_n_n.rhsBatch by decide), dif_pos (show (1 : Fin S20x1.rank) ∈ dot_S2048x20_S20x1_S2048x1_1_0_0_1_n_n.rhsNonContracting by decide)]
  rfl

/-- A [2048, 20] block times a [20, 1] weight column into a zero accumulator, at `(p, q)`: the sum over the 20 hidden units. -/
theorem matmul1_apply (l : FVec Ideal S2048x20 .bf16) (r : FVec Ideal S20x1 .bf16) (p : Fin 2048) (q : Fin 1) :
    matmul dot_S2048x20_S20x1_S2048x1_1_0_0_1_n_n none l r (constant (F := Ideal) S2048x1 .f32 0x00000000#32) (ix2 p q)
      = ∑ k : Fin 20, l (ix2 p k) * r (ix2 k q) := by
  simp only [matmul]
  rw [Ideal.matmul_constant_zero_apply, ← Equiv.sum_comp (ValueIdx.contrEquiv1 dot_S2048x20_S20x1_S2048x1_1_0_0_1_n_n 20 rfl rfl).symm]
  refine Finset.sum_congr rfl fun k _ => ?_
  have hk := ValueIdx.contrEquiv1_symm_val dot_S2048x20_S20x1_S2048x1_1_0_0_1_n_n 20 rfl rfl k
  have el : dot_S2048x20_S20x1_S2048x1_1_0_0_1_n_n.lhsIdx (ix2 p q) ((ValueIdx.contrEquiv1 dot_S2048x20_S20x1_S2048x1_1_0_0_1_n_n 20 rfl rfl).symm k) = ix2 p k := funext fun a => Fin.ext (by
    match a with
    | ⟨0, _⟩ => exact matmul1_apply_lhs0 _ _
    | ⟨1, _⟩ => exact (dot_S2048x20_S20x1_S2048x1_1_0_0_1_n_n.lhsIdx_val_of_single rfl _ _).trans hk)
  have er : dot_S2048x20_S20x1_S2048x1_1_0_0_1_n_n.rhsIdx (ix2 p q) ((ValueIdx.contrEquiv1 dot_S2048x20_S20x1_S2048x1_1_0_0_1_n_n 20 rfl rfl).symm k) = ix2 k q := funext fun a => Fin.ext (by
    match a with
    | ⟨0, _⟩ => exact (dot_S2048x20_S20x1_S2048x1_1_0_0_1_n_n.rhsIdx_val_of_single rfl _ _).trans hk
    | ⟨1, _⟩ => exact matmul1_apply_rhs1 _ _)
  rw [el, er]

/-! ## The loaded blocks in row form -/

/-- The weights as the body loads them: the biases are 1 × 80 and 1 × 1 blocks. -/
def blockWeights (x5 : Vec Ideal S1x80 .f32) (x6 : Vec Ideal S20x80 .f32) (x7 : Vec Ideal S1x80 .f32) (x8 x9 : Vec Ideal S20x80 .f32)
    (x10 : Vec Ideal S1x80 .f32) (x11 : Vec Ideal S20x1 .f32) (x12 : Vec Ideal S1x1 .f32) : Weights where
  w0 q := x5 (ix2 (0 : Fin 1) q)
  u0 k q := x6 (ix2 k q)
  b0 q := x7 (ix2 (0 : Fin 1) q)
  w1 k q := x8 (ix2 k q)
  u1 k q := x9 (ix2 k q)
  b1 q := x10 (ix2 (0 : Fin 1) q)
  wd k := x11 (ix2 k (0 : Fin 1))
  bd := x12 (ix2 (0 : Fin 1) (0 : Fin 1))

/-- Row `p` of the five loaded state blocks. -/
def blockRow (x0 : Vec Ideal S2048x1 .f32) (x1 x2 x3 x4 : Vec Ideal S2048x20 .f32) (p : Fin 2048) : Row where
  x := x0 (ix2 p (0 : Fin 1))
  h0 k := x1 (ix2 p k)
  c0 k := x2 (ix2 p k)
  h1 k := x3 (ix2 p k)
  c1 k := x4 (ix2 p k)

/-! ## The first cell -/

/-- The first pre-activation at `(p, q)`. -/
theorem pay13_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (q : Fin 80) :
    (k0_pay13 (F := Ideal) x0 x1 x5 x6 x7) (ix2 p q) = z0 (blockWeights x5 x6 x7 x8 x9 x10 x11 x12) (blockRow x0 x1 x2 x3 x4 p) q := by
  unfold k0_pay13
  rw [addf_apply, addf_apply, mulf_apply, LibKeepdims.broadcastTo_a1_ab_apply, broadcastTo_1b_ab_apply, broadcastTo_1b_ab_apply,
    shapeCast_self, shapeCast_self, matmul80_apply]
  rfl

/-- tanh and the logistic function act entry by entry. -/
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- The logistic function of the first pre-activation, at `(p, q)`. -/
theorem pay14_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (q : Fin 80) :
    (k0_pay14 (F := Ideal) x0 x1 x5 x6 x7) (ix2 p q) = Ideal.logistic (z0 (blockWeights x5 x6 x7 x8 x9 x10 x11 x12) (blockRow x0 x1 x2 x3 x4 p) q) := by
  unfold k0_pay14
  rw [logistic_apply, pay13_apply x0 x1 x2 x3 x4 x5 x6 x7 x8 x9 x10 x11 x12]

/-- tanh of the first pre-activation, at `(p, q)`. -/
theorem pay15_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (q : Fin 80) :
    (k0_pay15 (F := Ideal) x0 x1 x5 x6 x7) (ix2 p q) = Ideal.tanh (z0 (blockWeights x5 x6 x7 x8 x9 x10 x11 x12) (blockRow x0 x1 x2 x3 x4 p) q) := by
  unfold k0_pay15
  rw [tanh_apply, pay13_apply x0 x1 x2 x3 x4 x5 x6 x7 x8 x9 x10 x11 x12]

/-- The first cell's input gate at `(p, j)`: the logistic activation's column `j`. -/
theorem pay16_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (j : Fin 20) :
    (k0_pay16 (F := Ideal) x0 x1 x5 x6 x7) (ix2 p j) = Ideal.logistic (z0 (blockWeights x5 x6 x7 x8 x9 x10 x11 x12) (blockRow x0 x1 x2 x3 x4 p) (colI j)) := by
  unfold k0_pay16
  rw [slice2_axis1_apply 0 _ _ p j (colI j) (Nat.zero_add _).symm, pay14_apply x0 x1 x2 x3 x4 x5 x6 x7 x8 x9 x10 x11 x12]

/-- The first cell's new cell state at `(p, j)`. -/
theorem pay1_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (j : Fin 20) :
    (k0_pay1 (F := Ideal) x2 (k0_pay14 (F := Ideal) x0 x1 x5 x6 x7) (k0_pay15 (F := Ideal) x0 x1 x5 x6 x7) (k0_pay16 (F := Ideal) x0 x1 x5 x6 x7)) (ix2 p j) = c0n (blockWeights x5 x6 x7 x8 x9 x10 x11 x12) (blockRow x0 x1 x2 x3 x4 p) j := by
  unfold k0_pay1
  rw [addf_apply, mulf_apply, mulf_apply, slice2_axis1_apply 20 _ _ p j (colF j) rfl, slice2_axis1_apply 40 _ _ p j (colG j) rfl,
    pay14_apply x0 x1 x2 x3 x4 x5 x6 x7 x8 x9 x10 x11 x12, pay16_apply x0 x1 x2 x3 x4 x5 x6 x7 x8 x9 x10 x11 x12,
    pay15_apply x0 x1 x2 x3 x4 x5 x6 x7 x8 x9 x10 x11 x12]
  rfl

/-- The first cell's new hidden state at `(p, j)`. -/
theorem pay2_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (j : Fin 20) :
    (k0_pay2 (F := Ideal) x2 (k0_pay14 (F := Ideal) x0 x1 x5 x6 x7) (k0_pay15 (F := Ideal) x0 x1 x5 x6 x7) (k0_pay16 (F := Ideal) x0 x1 x5 x6 x7)) (ix2 p j) = h0n (blockWeights x5 x6 x7 x8 x9 x10 x11 x12) (blockRow x0 x1 x2 x3 x4 p) j := by
  unfold k0_pay2
  rw [mulf_apply, tanh_apply, slice2_axis1_apply 60 _ _ p j (colO j) rfl,
    pay14_apply x0 x1 x2 x3 x4 x5 x6 x7 x8 x9 x10 x11 x12, pay1_apply x0 x1 x2 x3 x4 x5 x6 x7 x8 x9 x10 x11 x12]
  rfl

/-! ## The second cell -/

/-- The second pre-activation at `(p, q)`: the new hidden state times the input weights, plus the old hidden state times the
    recurrent weights, plus the bias row. -/
theorem pay3_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (q : Fin 80) :
    (k0_pay3 (F := Ideal) x2 x3 (k0_pay8 (F := Ideal) x8) (k0_pay9 (F := Ideal) x9) (k0_pay10 (F := Ideal) x10) (k0_pay14 (F := Ideal) x0 x1 x5 x6 x7) (k0_pay15 (F := Ideal) x0 x1 x5 x6 x7) (k0_pay16 (F := Ideal) x0 x1 x5 x6 x7)) (ix2 p q) = z1 (blockWeights x5 x6 x7 x8 x9 x10 x11 x12) (blockRow x0 x1 x2 x3 x4 p) q := by
  unfold k0_pay3
  rw [addf_apply, addf_apply, broadcastTo_1b_ab_apply, matmul80_apply, matmul80_apply]
  simp only [truncf_apply, pay2_apply x0 x1 x2 x3 x4 x5 x6 x7 x8 x9 x10 x11 x12 p]
  unfold k0_pay10
  rw [shapeCast_self]
  rfl

/-- The logistic function of the second pre-activation, at `(p, q)`. -/
theorem pay4_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (q : Fin 80) :
    (k0_pay4 (F := Ideal) x2 x3 (k0_pay8 (F := Ideal) x8) (k0_pay9 (F := Ideal) x9) (k0_pay10 (F := Ideal) x10) (k0_pay14 (F := Ideal) x0 x1 x5 x6 x7) (k0_pay15 (F := Ideal) x0 x1 x5 x6 x7) (k0_pay16 (F := Ideal) x0 x1 x5 x6 x7)) (ix2 p q) = Ideal.logistic (z1 (blockWeights x5 x6 x7 x8 x9 x10 x11 x12) (blockRow x0 x1 x2 x3 x4 p) q) := by
  unfold k0_pay4
  rw [logistic_apply, pay3_apply x0 x1 x2 x3 x4 x5 x6 x7 x8 x9 x10 x11 x12]

/-- The second cell's new cell state at `(p, j)`. -/
theorem pay5_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (j : Fin 20) :
    (k0_pay5 (F := Ideal) x2 x3 x4 (k0_pay8 (F := Ideal) x8) (k0_pay9 (F := Ideal) x9) (k0_pay10 (F := Ideal) x10) (k0_pay14 (F := Ideal) x0 x1 x5 x6 x7) (k0_pay15 (F := Ideal) x0 x1 x5 x6 x7) (k0_pay16 (F := Ideal) x0 x1 x5 x6 x7)) (ix2 p j) = c1n (blockWeights x5 x6 x7 x8 x9 x10 x11 x12) (blockRow x0 x1 x2 x3 x4 p) j := by
  unfold k0_pay5
  rw [addf_apply, mulf_apply, mulf_apply, slice2_axis1_apply 20 _ _ p j (colF j) rfl,
    slice2_axis1_apply 0 _ _ p j (colI j) (Nat.zero_add _).symm, slice2_axis1_apply 40 _ _ p j (colG j) rfl, tanh_apply,
    pay4_apply x0 x1 x2 x3 x4 x5 x6 x7 x8 x9 x10 x11 x12, pay4_apply x0 x1 x2 x3 x4 x5 x6 x7 x8 x9 x10 x11 x12,
    pay3_apply x0 x1 x2 x3 x4 x5 x6 x7 x8 x9 x10 x11 x12]
  rfl

/-- The second cell's new hidden state at `(p, j)`. -/
theorem pay6_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (j : Fin 20) :
    (k0_pay6 (F := Ideal) x2 x3 x4 (k0_pay8 (F := Ideal) x8) (k0_pay9 (F := Ideal) x9) (k0_pay10 (F := Ideal) x10) (k0_pay14 (F := Ideal) x0 x1 x5 x6 x7) (k0_pay15 (F := Ideal) x0 x1 x5 x6 x7) (k0_pay16 (F := Ideal) x0 x1 x5 x6 x7)) (ix2 p j) = h1n (blockWeights x5 x6 x7 x8 x9 x10 x11 x12) (blockRow x0 x1 x2 x3 x4 p) j := by
  unfold k0_pay6
  rw [mulf_apply, tanh_apply, slice2_axis1_apply 60 _ _ p j (colO j) rfl,
    pay4_apply x0 x1 x2 x3 x4 x5 x6 x7 x8 x9 x10 x11 x12, pay5_apply x0 x1 x2 x3 x4 x5 x6 x7 x8 x9 x10 x11 x12]
  rfl

/-! ## The head -/

/-- The head's output for row `p`: the second new hidden state against the head's weight column, plus its bias. -/
theorem pay7_apply (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (p : Fin 2048) (u : Fin 1) :
    (k0_pay7 (F := Ideal) x2 x3 x4 (k0_pay8 (F := Ideal) x8) (k0_pay9 (F := Ideal) x9) (k0_pay10 (F := Ideal) x10) (k0_pay11 (F := Ideal) x11) (k0_pay12 (F := Ideal) x12) (k0_pay14 (F := Ideal) x0 x1 x5 x6 x7) (k0_pay15 (F := Ideal) x0 x1 x5 x6 x7) (k0_pay16 (F := Ideal) x0 x1 x5 x6 x7)) (ix2 p u) = out (blockWeights x5 x6 x7 x8 x9 x10 x11 x12) (blockRow x0 x1 x2 x3 x4 p) := by
  obtain rfl : u = 0 := Subsingleton.elim _ _
  unfold k0_pay7
  rw [addf_apply, broadcastTo_1b_ab_apply, matmul1_apply]
  simp only [truncf_apply, pay6_apply x0 x1 x2 x3 x4 x5 x6 x7 x8 x9 x10 x11 x12 p]
  unfold k0_pay12
  rw [shapeCast_self]
  rfl

end Cert.KernelIdeal.Body

end
-- ==== Proof.Windows.lean ====
/-
  The pipeline's windows, read.

  The grid has 1024 points.  At point `t` each of the ten row-tiled windows (the feature column, the four state arrays, the
  five results) holds rows `2048 t … 2048 t + 2047` of its array, so entry `(p, k)` of its block is entry `(2048 t + p, k)` of
  the array; each of the eight weight windows holds its whole array at every point.  Four of the staged arrays are written
  by reshapes before the region: the feature column from the [2048, 1024] input, two bias rows from the bias vectors, the
  head's bias from a one-element vector.  Together: row `p` of the loaded blocks at point `t` is row `2048 t + p` of the
  argument arrays, and the loaded weights are the argument weights.
-/
import proofs.«139615_j81449759801976_2_alg».proof.Proof.Gen.KernelIdeal.Frame
import proofs.«139615_j81449759801976_2_alg».proof.Proof.Body
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Windows

open Cert.KernelIdeal Cert.KernelIdeal.Gen Cert.KernelIdeal.Body Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The index maps, decided over the 1024 grid points -/

/-- Window 0 moves with the grid point along the rows and stays at column block 0. -/
theorem idxT_0 : ∀ t : Fin cfg0.N, win0_0.index t (0 : Fin 2) = t.val ∧ win0_0.index t (1 : Fin 2) = 0 :=
  (by decide +kernel : ∀ t : Fin grid0.N, _)
/-- Window 1 moves with the grid point along the rows and stays at column block 0. -/
theorem idxT_1 : ∀ t : Fin cfg0.N, win0_1.index t (0 : Fin 2) = t.val ∧ win0_1.index t (1 : Fin 2) = 0 :=
  (by decide +kernel : ∀ t : Fin grid0.N, _)
/-- Window 2 moves with the grid point along the rows and stays at column block 0. -/
theorem idxT_2 : ∀ t : Fin cfg0.N, win0_2.index t (0 : Fin 2) = t.val ∧ win0_2.index t (1 : Fin 2) = 0 :=
  (by decide +kernel : ∀ t : Fin grid0.N, _)
/-- Window 3 moves with the grid point along the rows and stays at column block 0. -/
theorem idxT_3 : ∀ t : Fin cfg0.N, win0_3.index t (0 : Fin 2) = t.val ∧ win0_3.index t (1 : Fin 2) = 0 :=
  (by decide +kernel : ∀ t : Fin grid0.N, _)
/-- Window 4 moves with the grid point along the rows and stays at column block 0. -/
theorem idxT_4 : ∀ t : Fin cfg0.N, win0_4.index t (0 : Fin 2) = t.val ∧ win0_4.index t (1 : Fin 2) = 0 :=
  (by decide +kernel : ∀ t : Fin grid0.N, _)
/-- Window 13 moves with the grid point along the rows and stays at column block 0. -/
theorem idxT_13 : ∀ t : Fin cfg0.N, win0_13.index t (0 : Fin 2) = t.val ∧ win0_13.index t (1 : Fin 2) = 0 :=
  (by decide +kernel : ∀ t : Fin grid0.N, _)
/-- Window 14 moves with the grid point along the rows and stays at column block 0. -/
theorem idxT_14 : ∀ t : Fin cfg0.N, win0_14.index t (0 : Fin 2) = t.val ∧ win0_14.index t (1 : Fin 2) = 0 :=
  (by decide +kernel : ∀ t : Fin grid0.N, _)
/-- Window 15 moves with the grid point along the rows and stays at column block 0. -/
theorem idxT_15 : ∀ t : Fin cfg0.N, win0_15.index t (0 : Fin 2) = t.val ∧ win0_15.index t (1 : Fin 2) = 0 :=
  (by decide +kernel : ∀ t : Fin grid0.N, _)
/-- Window 16 moves with the grid point along the rows and stays at column block 0. -/
theorem idxT_16 : ∀ t : Fin cfg0.N, win0_16.index t (0 : Fin 2) = t.val ∧ win0_16.index t (1 : Fin 2) = 0 :=
  (by decide +kernel : ∀ t : Fin grid0.N, _)
/-- Window 17 moves with the grid point along the rows and stays at column block 0. -/
theorem idxT_17 : ∀ t : Fin cfg0.N, win0_17.index t (0 : Fin 2) = t.val ∧ win0_17.index t (1 : Fin 2) = 0 :=
  (by decide +kernel : ∀ t : Fin grid0.N, _)
/-- Window 5 holds its whole array at every point. -/
theorem idxC_5 : ∀ t : Fin cfg0.N, win0_5.index t (0 : Fin 2) = 0 ∧ win0_5.index t (1 : Fin 2) = 0 :=
  (by decide +kernel : ∀ t : Fin grid0.N, _)
/-- Window 6 holds its whole array at every point. -/
theorem idxC_6 : ∀ t : Fin cfg0.N, win0_6.index t (0 : Fin 2) = 0 ∧ win0_6.index t (1 : Fin 2) = 0 :=
  (by decide +kernel : ∀ t : Fin grid0.N, _)
/-- Window 7 holds its whole array at every point. -/
theorem idxC_7 : ∀ t : Fin cfg0.N, win0_7.index t (0 : Fin 2) = 0 ∧ win0_7.index t (1 : Fin 2) = 0 :=
  (by decide +kernel : ∀ t : Fin grid0.N, _)
/-- Window 8 holds its whole array at every point. -/
theorem idxC_8 : ∀ t : Fin cfg0.N, win0_8.index t (0 : Fin 2) = 0 ∧ win0_8.index t (1 : Fin 2) = 0 :=
  (by decide +kernel : ∀ t : Fin grid0.N, _)
/-- Window 9 holds its whole array at every point. -/
theorem idxC_9 : ∀ t : Fin cfg0.N, win0_9.index t (0 : Fin 2) = 0 ∧ win0_9.index t (1 : Fin 2) = 0 :=
  (by decide +kernel : ∀ t : Fin grid0.N, _)
/-- Window 10 holds its whole array at every point. -/
theorem idxC_10 : ∀ t : Fin cfg0.N, win0_10.index t (0 : Fin 2) = 0 ∧ win0_10.index t (1 : Fin 2) = 0 :=
  (by decide +kernel : ∀ t : Fin grid0.N, _)
/-- Window 11 holds its whole array at every point. -/
theorem idxC_11 : ∀ t : Fin cfg0.N, win0_11.index t (0 : Fin 2) = 0 ∧ win0_11.index t (1 : Fin 2) = 0 :=
  (by decide +kernel : ∀ t : Fin grid0.N, _)
/-- Window 12 holds its whole array at every point. -/
theorem idxC_12 : ∀ t : Fin cfg0.N, win0_12.index t (0 : Fin 2) = 0 ∧ win0_12.index t (1 : Fin 2) = 0 :=
  (by decide +kernel : ∀ t : Fin grid0.N, _)

/-- The row of the batch that entry `p` of a block at point `t` holds. -/
def rowAt (t : Fin cfg0.N) (p : Fin 2048) : Fin 2097152 :=
  ⟨t.val * 2048 + p.val, by have h1 : t.val < cfg0.N := t.isLt; have h2 := p.isLt; have h3 : cfg0.N = 1024 := N_0; omega⟩

/-! ## The arrays the reshapes before the region write -/

/-- The feature column: the [2048, 1024] input recast as [2097152, 1]. -/
abbrev xcol (c : Dev nD) : S2097152x1.Idx → EReal := shapeCast _ (m ((c : Thread nD τ).loc main_arg0)) shapeCasts_S2048x1024_S2097152x1

theorem V_main_v0 (c : Dev nD) : (V m c main_v0 : S2097152x1.Idx → EReal) = xcol m c := by
  show StableHlo.after hostOps0 (fun b => m (c, b)) (Proc.devRef .tc main_v0) = _
  after_results
  rfl
theorem V_main_v1 (c : Dev nD) : (V m c main_v1 : S1x80.Idx → EReal) = shapeCast _ (m ((c : Thread nD τ).loc main_arg7)) shapeCasts_S80_S1x80 := by
  show StableHlo.after hostOps0 (fun b => m (c, b)) (Proc.devRef .tc main_v1) = _
  after_results
  rfl
theorem V_main_v2 (c : Dev nD) : (V m c main_v2 : S1x80.Idx → EReal) = shapeCast _ (m ((c : Thread nD τ).loc main_arg10)) shapeCasts_S80_S1x80 := by
  show StableHlo.after hostOps0 (fun b => m (c, b)) (Proc.devRef .tc main_v2) = _
  after_results
  rfl
theorem V_main_v3 (c : Dev nD) : (V m c main_v3 : S1x1.Idx → EReal) = shapeCast _ (m ((c : Thread nD τ).loc main_arg12)) shapeCasts_S1_S1x1 := by
  show StableHlo.after hostOps0 (fun b => m (c, b)) (Proc.devRef .tc main_v3) = _
  after_results
  rfl

/-! ## Where an entry of a row-tiled block sits in its array -/

theorem emb_0 (t : Fin cfg0.N) (p : Fin 2048) (k : Fin 1) :
    (((cfg0.win 0).blk t).view.emb (ix2 p k) : S2097152x1.Idx) = ix2 (rowAt t p) k := by
  funext a
  apply Fin.ext
  obtain ⟨e0, e1⟩ := idxT_0 t
  match a with
  | ⟨0, _⟩ => show win0_0.index t (0 : Fin 2) * 2048 + 1 * p.val = t.val * 2048 + p.val; rw [e0]; omega
  | ⟨1, _⟩ => show win0_0.index t (1 : Fin 2) * 1 + 1 * k.val = k.val; rw [e1]; omega

theorem emb_1 (t : Fin cfg0.N) (p : Fin 2048) (k : Fin 20) :
    (((cfg0.win 1).blk t).view.emb (ix2 p k) : S2097152x20.Idx) = ix2 (rowAt t p) k := by
  funext a
  apply Fin.ext
  obtain ⟨e0, e1⟩ := idxT_1 t
  match a with
  | ⟨0, _⟩ => show win0_1.index t (0 : Fin 2) * 2048 + 1 * p.val = t.val * 2048 + p.val; rw [e0]; omega
  | ⟨1, _⟩ => show win0_1.index t (1 : Fin 2) * 20 + 1 * k.val = k.val; rw [e1]; omega

theorem emb_2 (t : Fin cfg0.N) (p : Fin 2048) (k : Fin 20) :
    (((cfg0.win 2).blk t).view.emb (ix2 p k) : S2097152x20.Idx) = ix2 (rowAt t p) k := by
  funext a
  apply Fin.ext
  obtain ⟨e0, e1⟩ := idxT_2 t
  match a with
  | ⟨0, _⟩ => show win0_2.index t (0 : Fin 2) * 2048 + 1 * p.val = t.val * 2048 + p.val; rw [e0]; omega
  | ⟨1, _⟩ => show win0_2.index t (1 : Fin 2) * 20 + 1 * k.val = k.val; rw [e1]; omega

theorem emb_3 (t : Fin cfg0.N) (p : Fin 2048) (k : Fin 20) :
    (((cfg0.win 3).blk t).view.emb (ix2 p k) : S2097152x20.Idx) = ix2 (rowAt t p) k := by
  funext a
  apply Fin.ext
  obtain ⟨e0, e1⟩ := idxT_3 t
  match a with
  | ⟨0, _⟩ => show win0_3.index t (0 : Fin 2) * 2048 + 1 * p.val = t.val * 2048 + p.val; rw [e0]; omega
  | ⟨1, _⟩ => show win0_3.index t (1 : Fin 2) * 20 + 1 * k.val = k.val; rw [e1]; omega

theorem emb_4 (t : Fin cfg0.N) (p : Fin 2048) (k : Fin 20) :
    (((cfg0.win 4).blk t).view.emb (ix2 p k) : S2097152x20.Idx) = ix2 (rowAt t p) k := by
  funext a
  apply Fin.ext
  obtain ⟨e0, e1⟩ := idxT_4 t
  match a with
  | ⟨0, _⟩ => show win0_4.index t (0 : Fin 2) * 2048 + 1 * p.val = t.val * 2048 + p.val; rw [e0]; omega
  | ⟨1, _⟩ => show win0_4.index t (1 : Fin 2) * 20 + 1 * k.val = k.val; rw [e1]; omega

theorem emb_13 (t : Fin cfg0.N) (p : Fin 2048) (k : Fin 1) :
    (((cfg0.win 13).blk t).view.emb (ix2 p k) : S2097152x1.Idx) = ix2 (rowAt t p) k := by
  funext a
  apply Fin.ext
  obtain ⟨e0, e1⟩ := idxT_13 t
  match a with
  | ⟨0, _⟩ => show win0_13.index t (0 : Fin 2) * 2048 + 1 * p.val = t.val * 2048 + p.val; rw [e0]; omega
  | ⟨1, _⟩ => show win0_13.index t (1 : Fin 2) * 1 + 1 * k.val = k.val; rw [e1]; omega

theorem emb_14 (t : Fin cfg0.N) (p : Fin 2048) (k : Fin 20) :
    (((cfg0.win 14).blk t).view.emb (ix2 p k) : S2097152x20.Idx) = ix2 (rowAt t p) k := by
  funext a
  apply Fin.ext
  obtain ⟨e0, e1⟩ := idxT_14 t
  match a with
  | ⟨0, _⟩ => show win0_14.index t (0 : Fin 2) * 2048 + 1 * p.val = t.val * 2048 + p.val; rw [e0]; omega
  | ⟨1, _⟩ => show win0_14.index t (1 : Fin 2) * 20 + 1 * k.val = k.val; rw [e1]; omega

theorem emb_15 (t : Fin cfg0.N) (p : Fin 2048) (k : Fin 20) :
    (((cfg0.win 15).blk t).view.emb (ix2 p k) : S2097152x20.Idx) = ix2 (rowAt t p) k := by
  funext a
  apply Fin.ext
  obtain ⟨e0, e1⟩ := idxT_15 t
  match a with
  | ⟨0, _⟩ => show win0_15.index t (0 : Fin 2) * 2048 + 1 * p.val = t.val * 2048 + p.val; rw [e0]; omega
  | ⟨1, _⟩ => show win0_15.index t (1 : Fin 2) * 20 + 1 * k.val = k.val; rw [e1]; omega

theorem emb_16 (t : Fin cfg0.N) (p : Fin 2048) (k : Fin 20) :
    (((cfg0.win 16).blk t).view.emb (ix2 p k) : S2097152x20.Idx) = ix2 (rowAt t p) k := by
  funext a
  apply Fin.ext
  obtain ⟨e0, e1⟩ := idxT_16 t
  match a with
  | ⟨0, _⟩ => show win0_16.index t (0 : Fin 2) * 2048 + 1 * p.val = t.val * 2048 + p.val; rw [e0]; omega
  | ⟨1, _⟩ => show win0_16.index t (1 : Fin 2) * 20 + 1 * k.val = k.val; rw [e1]; omega

theorem emb_17 (t : Fin cfg0.N) (p : Fin 2048) (k : Fin 20) :
    (((cfg0.win 17).blk t).view.emb (ix2 p k) : S2097152x20.Idx) = ix2 (rowAt t p) k := by
  funext a
  apply Fin.ext
  obtain ⟨e0, e1⟩ := idxT_17 t
  match a with
  | ⟨0, _⟩ => show win0_17.index t (0 : Fin 2) * 2048 + 1 * p.val = t.val * 2048 + p.val; rw [e0]; omega
  | ⟨1, _⟩ => show win0_17.index t (1 : Fin 2) * 20 + 1 * k.val = k.val; rw [e1]; omega

/-! ## The input blocks, read -/

theorem iblk0_apply (c : Dev nD) (t : Fin cfg0.N) (p : Fin 2048) (k : Fin 1) :
    (iblk m c 0 t : S2048x1.Idx → EReal) (ix2 p k) = (V m c main_v0 : S2097152x1.Idx → EReal) (ix2 (rowAt t p) k) := by
  unfold iblk
  rw [View.read_apply]
  show V m c main_v0 _ = V m c main_v0 _
  exact congrArg (V m c main_v0 : S2097152x1.Idx → EReal) (emb_0 t p k)

theorem iblk1_apply (c : Dev nD) (t : Fin cfg0.N) (p : Fin 2048) (k : Fin 20) :
    (iblk m c 1 t : S2048x20.Idx → EReal) (ix2 p k) = (V m c main_arg1 : S2097152x20.Idx → EReal) (ix2 (rowAt t p) k) := by
  unfold iblk
  rw [View.read_apply]
  show V m c main_arg1 _ = V m c main_arg1 _
  exact congrArg (V m c main_arg1 : S2097152x20.Idx → EReal) (emb_1 t p k)

theorem iblk2_apply (c : Dev nD) (t : Fin cfg0.N) (p : Fin 2048) (k : Fin 20) :
    (iblk m c 2 t : S2048x20.Idx → EReal) (ix2 p k) = (V m c main_arg2 : S2097152x20.Idx → EReal) (ix2 (rowAt t p) k) := by
  unfold iblk
  rw [View.read_apply]
  show V m c main_arg2 _ = V m c main_arg2 _
  exact congrArg (V m c main_arg2 : S2097152x20.Idx → EReal) (emb_2 t p k)

theorem iblk3_apply (c : Dev nD) (t : Fin cfg0.N) (p : Fin 2048) (k : Fin 20) :
    (iblk m c 3 t : S2048x20.Idx → EReal) (ix2 p k) = (V m c main_arg3 : S2097152x20.Idx → EReal) (ix2 (rowAt t p) k) := by
  unfold iblk
  rw [View.read_apply]
  show V m c main_arg3 _ = V m c main_arg3 _
  exact congrArg (V m c main_arg3 : S2097152x20.Idx → EReal) (emb_3 t p k)

theorem iblk4_apply (c : Dev nD) (t : Fin cfg0.N) (p : Fin 2048) (k : Fin 20) :
    (iblk m c 4 t : S2048x20.Idx → EReal) (ix2 p k) = (V m c main_arg4 : S2097152x20.Idx → EReal) (ix2 (rowAt t p) k) := by
  unfold iblk
  rw [View.read_apply]
  show V m c main_arg4 _ = V m c main_arg4 _
  exact congrArg (V m c main_arg4 : S2097152x20.Idx → EReal) (emb_4 t p k)

theorem iblk5_eq (c : Dev nD) (t : Fin cfg0.N) : (iblk m c 5 t : S1x80.Idx → EReal) = (V m c main_arg5 : S1x80.Idx → EReal) := by
  funext y
  unfold iblk
  rw [View.read_apply]
  show V m c main_arg5 _ = V m c main_arg5 _
  refine congrArg (V m c main_arg5 : S1x80.Idx → EReal) ?_
  funext a
  apply Fin.ext
  obtain ⟨e0, e1⟩ := idxC_5 t
  match a with
  | ⟨0, _⟩ => show win0_5.index t (0 : Fin 2) * 1 + 1 * (y 0).val = (y 0).val; rw [e0]; omega
  | ⟨1, _⟩ => show win0_5.index t (1 : Fin 2) * 80 + 1 * (y 1).val = (y 1).val; rw [e1]; omega

theorem iblk6_eq (c : Dev nD) (t : Fin cfg0.N) : (iblk m c 6 t : S20x80.Idx → EReal) = (V m c main_arg6 : S20x80.Idx → EReal) := by
  funext y
  unfold iblk
  rw [View.read_apply]
  show V m c main_arg6 _ = V m c main_arg6 _
  refine congrArg (V m c main_arg6 : S20x80.Idx → EReal) ?_
  funext a
  apply Fin.ext
  obtain ⟨e0, e1⟩ := idxC_6 t
  match a with
  | ⟨0, _⟩ => show win0_6.index t (0 : Fin 2) * 20 + 1 * (y 0).val = (y 0).val; rw [e0]; omega
  | ⟨1, _⟩ => show win0_6.index t (1 : Fin 2) * 80 + 1 * (y 1).val = (y 1).val; rw [e1]; omega

theorem iblk7_eq (c : Dev nD) (t : Fin cfg0.N) : (iblk m c 7 t : S1x80.Idx → EReal) = (V m c main_v1 : S1x80.Idx → EReal) := by
  funext y
  unfold iblk
  rw [View.read_apply]
  show V m c main_v1 _ = V m c main_v1 _
  refine congrArg (V m c main_v1 : S1x80.Idx → EReal) ?_
  funext a
  apply Fin.ext
  obtain ⟨e0, e1⟩ := idxC_7 t
  match a with
  | ⟨0, _⟩ => show win0_7.index t (0 : Fin 2) * 1 + 1 * (y 0).val = (y 0).val; rw [e0]; omega
  | ⟨1, _⟩ => show win0_7.index t (1 : Fin 2) * 80 + 1 * (y 1).val = (y 1).val; rw [e1]; omega

theorem iblk8_eq (c : Dev nD) (t : Fin cfg0.N) : (iblk m c 8 t : S20x80.Idx → EReal) = (V m c main_arg8 : S20x80.Idx → EReal) := by
  funext y
  unfold iblk
  rw [View.read_apply]
  show V m c main_arg8 _ = V m c main_arg8 _
  refine congrArg (V m c main_arg8 : S20x80.Idx → EReal) ?_
  funext a
  apply Fin.ext
  obtain ⟨e0, e1⟩ := idxC_8 t
  match a with
  | ⟨0, _⟩ => show win0_8.index t (0 : Fin 2) * 20 + 1 * (y 0).val = (y 0).val; rw [e0]; omega
  | ⟨1, _⟩ => show win0_8.index t (1 : Fin 2) * 80 + 1 * (y 1).val = (y 1).val; rw [e1]; omega

theorem iblk9_eq (c : Dev nD) (t : Fin cfg0.N) : (iblk m c 9 t : S20x80.Idx → EReal) = (V m c main_arg9 : S20x80.Idx → EReal) := by
  funext y
  unfold iblk
  rw [View.read_apply]
  show V m c main_arg9 _ = V m c main_arg9 _
  refine congrArg (V m c main_arg9 : S20x80.Idx → EReal) ?_
  funext a
  apply Fin.ext
  obtain ⟨e0, e1⟩ := idxC_9 t
  match a with
  | ⟨0, _⟩ => show win0_9.index t (0 : Fin 2) * 20 + 1 * (y 0).val = (y 0).val; rw [e0]; omega
  | ⟨1, _⟩ => show win0_9.index t (1 : Fin 2) * 80 + 1 * (y 1).val = (y 1).val; rw [e1]; omega

theorem iblk10_eq (c : Dev nD) (t : Fin cfg0.N) : (iblk m c 10 t : S1x80.Idx → EReal) = (V m c main_v2 : S1x80.Idx → EReal) := by
  funext y
  unfold iblk
  rw [View.read_apply]
  show V m c main_v2 _ = V m c main_v2 _
  refine congrArg (V m c main_v2 : S1x80.Idx → EReal) ?_
  funext a
  apply Fin.ext
  obtain ⟨e0, e1⟩ := idxC_10 t
  match a with
  | ⟨0, _⟩ => show win0_10.index t (0 : Fin 2) * 1 + 1 * (y 0).val = (y 0).val; rw [e0]; omega
  | ⟨1, _⟩ => show win0_10.index t (1 : Fin 2) * 80 + 1 * (y 1).val = (y 1).val; rw [e1]; omega

theorem iblk11_eq (c : Dev nD) (t : Fin cfg0.N) : (iblk m c 11 t : S20x1.Idx → EReal) = (V m c main_arg11 : S20x1.Idx → EReal) := by
  funext y
  unfold iblk
  rw [View.read_apply]
  show V m c main_arg11 _ = V m c main_arg11 _
  refine congrArg (V m c main_arg11 : S20x1.Idx → EReal) ?_
  funext a
  apply Fin.ext
  obtain ⟨e0, e1⟩ := idxC_11 t
  match a with
  | ⟨0, _⟩ => show win0_11.index t (0 : Fin 2) * 20 + 1 * (y 0).val = (y 0).val; rw [e0]; omega
  | ⟨1, _⟩ => show win0_11.index t (1 : Fin 2) * 1 + 1 * (y 1).val = (y 1).val; rw [e1]; omega

theorem iblk12_eq (c : Dev nD) (t : Fin cfg0.N) : (iblk m c 12 t : S1x1.Idx → EReal) = (V m c main_v3 : S1x1.Idx → EReal) := by
  funext y
  unfold iblk
  rw [View.read_apply]
  show V m c main_v3 _ = V m c main_v3 _
  refine congrArg (V m c main_v3 : S1x1.Idx → EReal) ?_
  funext a
  apply Fin.ext
  obtain ⟨e0, e1⟩ := idxC_12 t
  match a with
  | ⟨0, _⟩ => show win0_12.index t (0 : Fin 2) * 1 + 1 * (y 0).val = (y 0).val; rw [e0]; omega
  | ⟨1, _⟩ => show win0_12.index t (1 : Fin 2) * 1 + 1 * (y 1).val = (y 1).val; rw [e1]; omega

/-! ## The loaded blocks in row form are the argument arrays in row form -/

/-- The weights of the argument arrays. -/
abbrev kW (c : Dev nD) : Weights :=
  weightsOf (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Row `n` of the argument arrays. -/
abbrev kRow (c : Dev nD) (n : Fin 2097152) : Row :=
  rowOf (xcol m c) (m ((c : Thread nD τ).loc main_arg1)) (m ((c : Thread nD τ).loc main_arg2)) (m ((c : Thread nD τ).loc main_arg3)) (m ((c : Thread nD τ).loc main_arg4)) n

theorem blockWeights_eq (c : Dev nD) (t : Fin cfg0.N) :
    blockWeights (iblk m c 5 t) (iblk m c 6 t) (iblk m c 7 t) (iblk m c 8 t) (iblk m c 9 t) (iblk m c 10 t) (iblk m c 11 t) (iblk m c 12 t) = kW m c := by
  refine congr (congr (congr (congr (congr (congr (congr (congrArg Weights.mk ?_) ?_) ?_) ?_) ?_) ?_) ?_) ?_
  · funext q; exact congrFun ((iblk5_eq m c t).trans (V_main_arg5 m c)) (ix2 (0 : Fin 1) q)
  · funext k q; exact congrFun ((iblk6_eq m c t).trans (V_main_arg6 m c)) (ix2 k q)
  · funext q; exact (congrFun ((iblk7_eq m c t).trans (V_main_v1 m c)) (ix2 (0 : Fin 1) q)).trans (shapeCast_a_1a_apply _ _ (0 : Fin 1) q)
  · funext k q; exact congrFun ((iblk8_eq m c t).trans (V_main_arg8 m c)) (ix2 k q)
  · funext k q; exact congrFun ((iblk9_eq m c t).trans (V_main_arg9 m c)) (ix2 k q)
  · funext q; exact (congrFun ((iblk10_eq m c t).trans (V_main_v2 m c)) (ix2 (0 : Fin 1) q)).trans (shapeCast_a_1a_apply _ _ (0 : Fin 1) q)
  · funext k; exact congrFun ((iblk11_eq m c t).trans (V_main_arg11 m c)) (ix2 k (0 : Fin 1))
  · exact (congrFun ((iblk12_eq m c t).trans (V_main_v3 m c)) (ix2 (0 : Fin 1) (0 : Fin 1))).trans (shapeCast_a_1a_apply _ _ (0 : Fin 1) (0 : Fin 1))

theorem blockRow_eq (c : Dev nD) (t : Fin cfg0.N) (p : Fin 2048) :
    blockRow (iblk m c 0 t) (iblk m c 1 t) (iblk m c 2 t) (iblk m c 3 t) (iblk m c 4 t) p = kRow m c (rowAt t p) := by
  refine congr (congr (congr (congr (congrArg Row.mk ?_) ?_) ?_) ?_) ?_
  · exact (iblk0_apply m c t p (0 : Fin 1)).trans (congrFun (V_main_v0 m c) _)
  · funext k; exact (iblk1_apply m c t p k).trans (congrFun (V_main_arg1 m c) _)
  · funext k; exact (iblk2_apply m c t p k).trans (congrFun (V_main_arg2 m c) _)
  · funext k; exact (iblk3_apply m c t p k).trans (congrFun (V_main_arg3 m c) _)
  · funext k; exact (iblk4_apply m c t p k).trans (congrFun (V_main_arg4 m c) _)

end Cert.KernelIdeal.Windows

end
-- ==== Proof.Outputs.lean ====
/-
  The kernel's five result arrays after the run.

  The body stores each result block whole, so what a grid point leaves in an output window is one payload of the blocks it
  loaded; by the body's arithmetic that is the specification's row function of the rows the point holds, which is the same
  rows of one whole-array function of the argument arrays.  Every row lies in exactly the block of the point `row / 2048`,
  so the 1024 blocks cover each result array and the array ends at that function.  The head's output column is then recast
  as [2048, 1024] by the one reshape after the region.
-/
import proofs.«139615_j81449759801976_2_alg».proof.Proof.Windows
import Idealize.ShloMosaic.Lib.Pipeline.Value
import Idealize.ShloMosaic.Lib.ValueIdx
import Idealize.ShloMosaic.Lib.StableHlo.Run

set_option maxRecDepth 16384

noncomputable section

namespace Cert.KernelIdeal.Outputs

open Cert.KernelIdeal Cert.KernelIdeal.Gen Cert.KernelIdeal.Body Cert.KernelIdeal.Windows Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the body leaves in each output window, entry by entry -/

/-- Output window 13's buffer after the body holds, at `(p, j)`, the head's output column of the row that entry `p` of the loaded blocks is. -/
theorem out13_at (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (θ : Weights) (X : ANx1) (H0 C0 H1 C1 : ANx20) (base : Fin 2048 → Fin 2097152)
    (hθ : blockWeights x5 x6 x7 x8 x9 x10 x11 x12 = θ) (hr : ∀ p, blockRow x0 x1 x2 x3 x4 p = rowOf X H0 C0 H1 C1 (base p))
    (p : Fin 2048) (j : Fin 1) :
    (out0_13 (F := Ideal) x0 x1 x2 x3 x4 x5 x6 x7 x8 x9 x10 x11 x12 : S2048x1.Idx → EReal) (ix2 p j) = arrOut θ X H0 C0 H1 C1 (ix2 (base p) j) := by
  unfold out0_13
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  rw [pay7_apply x0 x1 x2 x3 x4 x5 x6 x7 x8 x9 x10 x11 x12 p j, hθ, hr p]
  rfl

/-- Output window 14's buffer after the body holds, at `(p, j)`, the first cell's new hidden state of the row that entry `p` of the loaded blocks is. -/
theorem out14_at (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (θ : Weights) (X : ANx1) (H0 C0 H1 C1 : ANx20) (base : Fin 2048 → Fin 2097152)
    (hθ : blockWeights x5 x6 x7 x8 x9 x10 x11 x12 = θ) (hr : ∀ p, blockRow x0 x1 x2 x3 x4 p = rowOf X H0 C0 H1 C1 (base p))
    (p : Fin 2048) (j : Fin 20) :
    (out0_14 (F := Ideal) x0 x1 x2 x3 x4 x5 x6 x7 x8 x9 x10 x11 x12 : S2048x20.Idx → EReal) (ix2 p j) = arrH0 θ X H0 C0 H1 C1 (ix2 (base p) j) := by
  unfold out0_14
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  rw [pay2_apply x0 x1 x2 x3 x4 x5 x6 x7 x8 x9 x10 x11 x12 p j, hθ, hr p]
  rfl

/-- Output window 15's buffer after the body holds, at `(p, j)`, the first cell's new cell state of the row that entry `p` of the loaded blocks is. -/
theorem out15_at (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (θ : Weights) (X : ANx1) (H0 C0 H1 C1 : ANx20) (base : Fin 2048 → Fin 2097152)
    (hθ : blockWeights x5 x6 x7 x8 x9 x10 x11 x12 = θ) (hr : ∀ p, blockRow x0 x1 x2 x3 x4 p = rowOf X H0 C0 H1 C1 (base p))
    (p : Fin 2048) (j : Fin 20) :
    (out0_15 (F := Ideal) x0 x1 x2 x3 x4 x5 x6 x7 x8 x9 x10 x11 x12 : S2048x20.Idx → EReal) (ix2 p j) = arrC0 θ X H0 C0 H1 C1 (ix2 (base p) j) := by
  unfold out0_15
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  rw [pay1_apply x0 x1 x2 x3 x4 x5 x6 x7 x8 x9 x10 x11 x12 p j, hθ, hr p]
  rfl

/-- Output window 16's buffer after the body holds, at `(p, j)`, the second cell's new hidden state of the row that entry `p` of the loaded blocks is. -/
theorem out16_at (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (θ : Weights) (X : ANx1) (H0 C0 H1 C1 : ANx20) (base : Fin 2048 → Fin 2097152)
    (hθ : blockWeights x5 x6 x7 x8 x9 x10 x11 x12 = θ) (hr : ∀ p, blockRow x0 x1 x2 x3 x4 p = rowOf X H0 C0 H1 C1 (base p))
    (p : Fin 2048) (j : Fin 20) :
    (out0_16 (F := Ideal) x0 x1 x2 x3 x4 x5 x6 x7 x8 x9 x10 x11 x12 : S2048x20.Idx → EReal) (ix2 p j) = arrH1 θ X H0 C0 H1 C1 (ix2 (base p) j) := by
  unfold out0_16
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  rw [pay6_apply x0 x1 x2 x3 x4 x5 x6 x7 x8 x9 x10 x11 x12 p j, hθ, hr p]
  rfl

/-- Output window 17's buffer after the body holds, at `(p, j)`, the second cell's new cell state of the row that entry `p` of the loaded blocks is. -/
theorem out17_at (x0 : Vec Ideal S2048x1 .f32) (x1 x2 x3 x4 : Vec Ideal S2048x20 .f32) (x5 : Vec Ideal S1x80 .f32) (x6 : Vec Ideal S20x80 .f32) (x7 : Vec Ideal S1x80 .f32) (x8 x9 : Vec Ideal S20x80 .f32) (x10 : Vec Ideal S1x80 .f32) (x11 : Vec Ideal S20x1 .f32) (x12 : Vec Ideal S1x1 .f32) (θ : Weights) (X : ANx1) (H0 C0 H1 C1 : ANx20) (base : Fin 2048 → Fin 2097152)
    (hθ : blockWeights x5 x6 x7 x8 x9 x10 x11 x12 = θ) (hr : ∀ p, blockRow x0 x1 x2 x3 x4 p = rowOf X H0 C0 H1 C1 (base p))
    (p : Fin 2048) (j : Fin 20) :
    (out0_17 (F := Ideal) x0 x1 x2 x3 x4 x5 x6 x7 x8 x9 x10 x11 x12 : S2048x20.Idx → EReal) (ix2 p j) = arrC1 θ X H0 C0 H1 C1 (ix2 (base p) j) := by
  unfold out0_17
  rw [View.canon_unit_zero hz]
  simp only [View.ld_unit_zero (S := S2048x1) hz, View.ld_unit_zero (S := S2048x20) hz, View.ld_unit_zero (S := S1x80) hz,
    View.ld_unit_zero (S := S20x80) hz, View.ld_unit_zero (S := S20x1) hz, View.ld_unit_zero (S := S1x1) hz]
  rw [pay5_apply x0 x1 x2 x3 x4 x5 x6 x7 x8 x9 x10 x11 x12 p j, hθ, hr p]
  rfl

/-! ## The result arrays as functions of the argument arrays -/

/-- The array of the head's output column. -/
abbrev gOut (c : Dev nD) : S2097152x1.Idx → EReal := arrOut (kW m c) (xcol m c) (m ((c : Thread nD τ).loc main_arg1)) (m ((c : Thread nD τ).loc main_arg2)) (m ((c : Thread nD τ).loc main_arg3)) (m ((c : Thread nD τ).loc main_arg4))

/-- The array of the first cell's new hidden state. -/
abbrev gH0 (c : Dev nD) : S2097152x20.Idx → EReal := arrH0 (kW m c) (xcol m c) (m ((c : Thread nD τ).loc main_arg1)) (m ((c : Thread nD τ).loc main_arg2)) (m ((c : Thread nD τ).loc main_arg3)) (m ((c : Thread nD τ).loc main_arg4))

/-- The array of the first cell's new cell state. -/
abbrev gC0 (c : Dev nD) : S2097152x20.Idx → EReal := arrC0 (kW m c) (xcol m c) (m ((c : Thread nD τ).loc main_arg1)) (m ((c : Thread nD τ).loc main_arg2)) (m ((c : Thread nD τ).loc main_arg3)) (m ((c : Thread nD τ).loc main_arg4))

/-- The array of the second cell's new hidden state. -/
abbrev gH1 (c : Dev nD) : S2097152x20.Idx → EReal := arrH1 (kW m c) (xcol m c) (m ((c : Thread nD τ).loc main_arg1)) (m ((c : Thread nD τ).loc main_arg2)) (m ((c : Thread nD τ).loc main_arg3)) (m ((c : Thread nD τ).loc main_arg4))

/-- The array of the second cell's new cell state. -/
abbrev gC1 (c : Dev nD) : S2097152x20.Idx → EReal := arrC1 (kW m c) (xcol m c) (m ((c : Thread nD τ).loc main_arg1)) (m ((c : Thread nD τ).loc main_arg2)) (m ((c : Thread nD τ).loc main_arg3)) (m ((c : Thread nD τ).loc main_arg4))

/-! ## What each point writes back is its block of the result -/

theorem flushed13_at (c : Dev nD) (t : Fin cfg0.N) (y : S2048x1.Idx) :
    (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : S2048x1.Idx → EReal) y = gOut m c (((cfg0.win 13).blk t).view.emb y) := by
  obtain ⟨p, j, rfl⟩ : ∃ (p : Fin 2048) (j : Fin 1), y = ix2 p j := ⟨y 0, y 1, eq_ix2 y⟩
  exact (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (kW m c) (xcol m c) (m ((c : Thread nD τ).loc main_arg1)) (m ((c : Thread nD τ).loc main_arg2)) (m ((c : Thread nD τ).loc main_arg3)) (m ((c : Thread nD τ).loc main_arg4)) (rowAt t)
    (blockWeights_eq m c t) (blockRow_eq m c t) p j).trans (congrArg (gOut m c) (emb_13 t p j)).symm

theorem flushed13_eq (c : Dev nD) (t : Fin cfg0.N) :
    (dats m 0 c).flushed 13 t = ((cfg0.win 13).blk t).view.read (Elt Ideal) (gOut m c) := by
  show (cfg0.win 13).cut (grid0.coords t) ((dats m 0 c).after 13 t) = _
  rw [after0_13]
  funext y
  exact flushed13_at m c t y

/-- Row `r` of the array is in the block of point `r / 2048`. -/
theorem cover13 (i : S2097152x1.Idx) :
    ∃ t : Fin cfg0.N, (cfg0.win 13).flush t = true ∧ i ∈ ((cfg0.win 13).blk t).view.set := by
  have hN : cfg0.N = 1024 := N_0
  have h0 : (i 0).val < 2097152 := (i 0).isLt
  have h1 : (i 1).val < 1 := (i 1).isLt
  obtain ⟨t, ht⟩ : ∃ t : Fin cfg0.N, t.val = (i 0).val / 2048 := ⟨⟨(i 0).val / 2048, by omega⟩, rfl⟩
  refine ⟨t, flush0_13 t, ?_⟩
  show i ∈ ((View.whole main_v4_0).slice (win0_13.rect t)).set
  rw [View.set_slice_whole, Rect.mem_set_unit]
  obtain ⟨e0, e1⟩ := idxT_13 t
  intro a
  match a with
  | ⟨0, _⟩ => show win0_13.index t (0 : Fin 2) * 2048 ≤ (i 0).val ∧ (i 0).val < win0_13.index t (0 : Fin 2) * 2048 + 2048; rw [e0, ht]; omega
  | ⟨1, _⟩ => show win0_13.index t (1 : Fin 2) * 1 ≤ (i 1).val ∧ (i 1).val < win0_13.index t (1 : Fin 2) * 1 + 1; rw [e1]; omega

/-- After the last write-back the array is the head's output column of every row. -/
theorem final13 (c : Dev nD) : (dats m 0 c).arrAt 13 cfg0.N = gOut m c :=
  (dats m 0 c).arrAt_eq_of_cover 13 (gOut m c) (fun t _ => flushed13_eq m c t) (cover13)

theorem flushed14_at (c : Dev nD) (t : Fin cfg0.N) (y : S2048x20.Idx) :
    (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : S2048x20.Idx → EReal) y = gH0 m c (((cfg0.win 14).blk t).view.emb y) := by
  obtain ⟨p, j, rfl⟩ : ∃ (p : Fin 2048) (j : Fin 20), y = ix2 p j := ⟨y 0, y 1, eq_ix2 y⟩
  exact (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (kW m c) (xcol m c) (m ((c : Thread nD τ).loc main_arg1)) (m ((c : Thread nD τ).loc main_arg2)) (m ((c : Thread nD τ).loc main_arg3)) (m ((c : Thread nD τ).loc main_arg4)) (rowAt t)
    (blockWeights_eq m c t) (blockRow_eq m c t) p j).trans (congrArg (gH0 m c) (emb_14 t p j)).symm

theorem flushed14_eq (c : Dev nD) (t : Fin cfg0.N) :
    (dats m 0 c).flushed 14 t = ((cfg0.win 14).blk t).view.read (Elt Ideal) (gH0 m c) := by
  show (cfg0.win 14).cut (grid0.coords t) ((dats m 0 c).after 14 t) = _
  rw [after0_14]
  funext y
  exact flushed14_at m c t y

/-- Row `r` of the array is in the block of point `r / 2048`. -/
theorem cover14 (i : S2097152x20.Idx) :
    ∃ t : Fin cfg0.N, (cfg0.win 14).flush t = true ∧ i ∈ ((cfg0.win 14).blk t).view.set := by
  have hN : cfg0.N = 1024 := N_0
  have h0 : (i 0).val < 2097152 := (i 0).isLt
  have h1 : (i 1).val < 20 := (i 1).isLt
  obtain ⟨t, ht⟩ : ∃ t : Fin cfg0.N, t.val = (i 0).val / 2048 := ⟨⟨(i 0).val / 2048, by omega⟩, rfl⟩
  refine ⟨t, flush0_14 t, ?_⟩
  show i ∈ ((View.whole main_v4_1).slice (win0_14.rect t)).set
  rw [View.set_slice_whole, Rect.mem_set_unit]
  obtain ⟨e0, e1⟩ := idxT_14 t
  intro a
  match a with
  | ⟨0, _⟩ => show win0_14.index t (0 : Fin 2) * 2048 ≤ (i 0).val ∧ (i 0).val < win0_14.index t (0 : Fin 2) * 2048 + 2048; rw [e0, ht]; omega
  | ⟨1, _⟩ => show win0_14.index t (1 : Fin 2) * 20 ≤ (i 1).val ∧ (i 1).val < win0_14.index t (1 : Fin 2) * 20 + 20; rw [e1]; omega

/-- After the last write-back the array is the first cell's new hidden state of every row. -/
theorem final14 (c : Dev nD) : (dats m 0 c).arrAt 14 cfg0.N = gH0 m c :=
  (dats m 0 c).arrAt_eq_of_cover 14 (gH0 m c) (fun t _ => flushed14_eq m c t) (cover14)

theorem flushed15_at (c : Dev nD) (t : Fin cfg0.N) (y : S2048x20.Idx) :
    (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : S2048x20.Idx → EReal) y = gC0 m c (((cfg0.win 15).blk t).view.emb y) := by
  obtain ⟨p, j, rfl⟩ : ∃ (p : Fin 2048) (j : Fin 20), y = ix2 p j := ⟨y 0, y 1, eq_ix2 y⟩
  exact (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (kW m c) (xcol m c) (m ((c : Thread nD τ).loc main_arg1)) (m ((c : Thread nD τ).loc main_arg2)) (m ((c : Thread nD τ).loc main_arg3)) (m ((c : Thread nD τ).loc main_arg4)) (rowAt t)
    (blockWeights_eq m c t) (blockRow_eq m c t) p j).trans (congrArg (gC0 m c) (emb_15 t p j)).symm

theorem flushed15_eq (c : Dev nD) (t : Fin cfg0.N) :
    (dats m 0 c).flushed 15 t = ((cfg0.win 15).blk t).view.read (Elt Ideal) (gC0 m c) := by
  show (cfg0.win 15).cut (grid0.coords t) ((dats m 0 c).after 15 t) = _
  rw [after0_15]
  funext y
  exact flushed15_at m c t y

/-- Row `r` of the array is in the block of point `r / 2048`. -/
theorem cover15 (i : S2097152x20.Idx) :
    ∃ t : Fin cfg0.N, (cfg0.win 15).flush t = true ∧ i ∈ ((cfg0.win 15).blk t).view.set := by
  have hN : cfg0.N = 1024 := N_0
  have h0 : (i 0).val < 2097152 := (i 0).isLt
  have h1 : (i 1).val < 20 := (i 1).isLt
  obtain ⟨t, ht⟩ : ∃ t : Fin cfg0.N, t.val = (i 0).val / 2048 := ⟨⟨(i 0).val / 2048, by omega⟩, rfl⟩
  refine ⟨t, flush0_15 t, ?_⟩
  show i ∈ ((View.whole main_v4_2).slice (win0_15.rect t)).set
  rw [View.set_slice_whole, Rect.mem_set_unit]
  obtain ⟨e0, e1⟩ := idxT_15 t
  intro a
  match a with
  | ⟨0, _⟩ => show win0_15.index t (0 : Fin 2) * 2048 ≤ (i 0).val ∧ (i 0).val < win0_15.index t (0 : Fin 2) * 2048 + 2048; rw [e0, ht]; omega
  | ⟨1, _⟩ => show win0_15.index t (1 : Fin 2) * 20 ≤ (i 1).val ∧ (i 1).val < win0_15.index t (1 : Fin 2) * 20 + 20; rw [e1]; omega

/-- After the last write-back the array is the first cell's new cell state of every row. -/
theorem final15 (c : Dev nD) : (dats m 0 c).arrAt 15 cfg0.N = gC0 m c :=
  (dats m 0 c).arrAt_eq_of_cover 15 (gC0 m c) (fun t _ => flushed15_eq m c t) (cover15)

theorem flushed16_at (c : Dev nD) (t : Fin cfg0.N) (y : S2048x20.Idx) :
    (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : S2048x20.Idx → EReal) y = gH1 m c (((cfg0.win 16).blk t).view.emb y) := by
  obtain ⟨p, j, rfl⟩ : ∃ (p : Fin 2048) (j : Fin 20), y = ix2 p j := ⟨y 0, y 1, eq_ix2 y⟩
  exact (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (kW m c) (xcol m c) (m ((c : Thread nD τ).loc main_arg1)) (m ((c : Thread nD τ).loc main_arg2)) (m ((c : Thread nD τ).loc main_arg3)) (m ((c : Thread nD τ).loc main_arg4)) (rowAt t)
    (blockWeights_eq m c t) (blockRow_eq m c t) p j).trans (congrArg (gH1 m c) (emb_16 t p j)).symm

theorem flushed16_eq (c : Dev nD) (t : Fin cfg0.N) :
    (dats m 0 c).flushed 16 t = ((cfg0.win 16).blk t).view.read (Elt Ideal) (gH1 m c) := by
  show (cfg0.win 16).cut (grid0.coords t) ((dats m 0 c).after 16 t) = _
  rw [after0_16]
  funext y
  exact flushed16_at m c t y

/-- Row `r` of the array is in the block of point `r / 2048`. -/
theorem cover16 (i : S2097152x20.Idx) :
    ∃ t : Fin cfg0.N, (cfg0.win 16).flush t = true ∧ i ∈ ((cfg0.win 16).blk t).view.set := by
  have hN : cfg0.N = 1024 := N_0
  have h0 : (i 0).val < 2097152 := (i 0).isLt
  have h1 : (i 1).val < 20 := (i 1).isLt
  obtain ⟨t, ht⟩ : ∃ t : Fin cfg0.N, t.val = (i 0).val / 2048 := ⟨⟨(i 0).val / 2048, by omega⟩, rfl⟩
  refine ⟨t, flush0_16 t, ?_⟩
  show i ∈ ((View.whole main_v4_3).slice (win0_16.rect t)).set
  rw [View.set_slice_whole, Rect.mem_set_unit]
  obtain ⟨e0, e1⟩ := idxT_16 t
  intro a
  match a with
  | ⟨0, _⟩ => show win0_16.index t (0 : Fin 2) * 2048 ≤ (i 0).val ∧ (i 0).val < win0_16.index t (0 : Fin 2) * 2048 + 2048; rw [e0, ht]; omega
  | ⟨1, _⟩ => show win0_16.index t (1 : Fin 2) * 20 ≤ (i 1).val ∧ (i 1).val < win0_16.index t (1 : Fin 2) * 20 + 20; rw [e1]; omega

/-- After the last write-back the array is the second cell's new hidden state of every row. -/
theorem final16 (c : Dev nD) : (dats m 0 c).arrAt 16 cfg0.N = gH1 m c :=
  (dats m 0 c).arrAt_eq_of_cover 16 (gH1 m c) (fun t _ => flushed16_eq m c t) (cover16)

theorem flushed17_at (c : Dev nD) (t : Fin cfg0.N) (y : S2048x20.Idx) :
    (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : S2048x20.Idx → EReal) y = gC1 m c (((cfg0.win 17).blk t).view.emb y) := by
  obtain ⟨p, j, rfl⟩ : ∃ (p : Fin 2048) (j : Fin 20), y = ix2 p j := ⟨y 0, y 1, eq_ix2 y⟩
  exact (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (kW m c) (xcol m c) (m ((c : Thread nD τ).loc main_arg1)) (m ((c : Thread nD τ).loc main_arg2)) (m ((c : Thread nD τ).loc main_arg3)) (m ((c : Thread nD τ).loc main_arg4)) (rowAt t)
    (blockWeights_eq m c t) (blockRow_eq m c t) p j).trans (congrArg (gC1 m c) (emb_17 t p j)).symm

theorem flushed17_eq (c : Dev nD) (t : Fin cfg0.N) :
    (dats m 0 c).flushed 17 t = ((cfg0.win 17).blk t).view.read (Elt Ideal) (gC1 m c) := by
  show (cfg0.win 17).cut (grid0.coords t) ((dats m 0 c).after 17 t) = _
  rw [after0_17]
  funext y
  exact flushed17_at m c t y

/-- Row `r` of the array is in the block of point `r / 2048`. -/
theorem cover17 (i : S2097152x20.Idx) :
    ∃ t : Fin cfg0.N, (cfg0.win 17).flush t = true ∧ i ∈ ((cfg0.win 17).blk t).view.set := by
  have hN : cfg0.N = 1024 := N_0
  have h0 : (i 0).val < 2097152 := (i 0).isLt
  have h1 : (i 1).val < 20 := (i 1).isLt
  obtain ⟨t, ht⟩ : ∃ t : Fin cfg0.N, t.val = (i 0).val / 2048 := ⟨⟨(i 0).val / 2048, by omega⟩, rfl⟩
  refine ⟨t, flush0_17 t, ?_⟩
  show i ∈ ((View.whole main_v4_4).slice (win0_17.rect t)).set
  rw [View.set_slice_whole, Rect.mem_set_unit]
  obtain ⟨e0, e1⟩ := idxT_17 t
  intro a
  match a with
  | ⟨0, _⟩ => show win0_17.index t (0 : Fin 2) * 2048 ≤ (i 0).val ∧ (i 0).val < win0_17.index t (0 : Fin 2) * 2048 + 2048; rw [e0, ht]; omega
  | ⟨1, _⟩ => show win0_17.index t (1 : Fin 2) * 20 ≤ (i 1).val ∧ (i 1).val < win0_17.index t (1 : Fin 2) * 20 + 20; rw [e1]; omega

/-- After the last write-back the array is the second cell's new cell state of every row. -/
theorem final17 (c : Dev nD) : (dats m 0 c).arrAt 17 cfg0.N = gC1 m c :=
  (dats m 0 c).arrAt_eq_of_cover 17 (gC1 m c) (fun t _ => flushed17_eq m c t) (cover17)

/-! ## The reshape after the region -/

/-- The first result: the head's output column recast as [2048, 1024]. -/
theorem tail_v5 (c : Dev nD) :
    Pipeline.afterTail₀ cfgs (dats m) 0 (V0 m) [hostOps1] c main_v5 = shapeCast _ (gOut m c) shapeCasts_S2097152x1_S2048x1024 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4_0) = gOut m c :=
    (Pipeline.withArrays_arr spec0 launch0.win.arr_inj c _ _ 13).trans (final13 m c)
  rw [e]
  rfl

/-! ## The run, read -/

/-- Every weakly fair execution of the kernel's program ends with the five results at their functions of the argument arrays
    and the argument arrays unchanged. -/
theorem run : θ_run defs (onTc (τ := τ) (main (F := Ideal))) ⟨m, fun _ => 0, ρ⟩ fun r => ∀ c : Dev nD,
      r.2.mem ((c.tc : Thread nD τ).loc main_v5) = shapeCast _ (gOut m c) shapeCasts_S2097152x1_S2048x1024
      ∧ r.2.mem ((c.tc : Thread nD τ).loc main_v4_1) = gH0 m c
      ∧ r.2.mem ((c.tc : Thread nD τ).loc main_v4_2) = gC0 m c
      ∧ r.2.mem ((c.tc : Thread nD τ).loc main_v4_3) = gH1 m c
      ∧ r.2.mem ((c.tc : Thread nD τ).loc main_v4_4) = gC1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨
      ((h c).2 main_v5 (Pipeline.mem_restRefs_of main_v5 (by decide) (by decide))).trans (tail_v5 m c),
      ((h c).1 14).trans (final14 m c),
      ((h c).1 15).trans (final15 m c),
      ((h c).1 16).trans (final16 m c),
      ((h c).1 17).trans (final17 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩)
    (run_main m ρ)

end Cert.KernelIdeal.Outputs

end
-- ==== Proof.RefSpec.lean ====
/-
  The reference program, one stage at a time, read at an entry `(n, j)` of its 2,097,152-row arrays.

  The reference computes each cell's pre-activation for all rows at once, slices the four gates out of it, applies the
  logistic function (spelt as negate, exponential, add one, divide into one) and tanh to the slices, and combines them.
  Read at row `n`, each stage is the specification's row function of row `n` of the argument arrays: a product with a
  one-row or 20-row matrix is the sum over that axis, a bias vector broadcast over the rows reads its own entry, a slice at
  offset 0 / 20 / 40 / 60 reads the gate's column, and the expanded logistic function is the logistic function.
-/
import proofs.«139615_j81449759801976_2_alg».proof.Proof.Gen.ReferenceIdeal.Read
import proofs.«139615_j81449759801976_2_alg».proof.Proof.Spec

noncomputable section

namespace Cert.ReferenceIdeal.RefSpec

open Cert.ReferenceIdeal Cert.ReferenceIdeal.Read Idealize.ShloMosaic Idealize.ShloMosaic.ValueIdx Cert.Lstm

/-! ## The first cell -/

/-- The first pre-activation at `(n, q)`: the feature times the weight row (a sum over one term), plus row `n` of the hidden
    state against the recurrent weights, plus the bias vector's entry `q`. -/
theorem z0_apply (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (q : Fin 80) :
    val_main_v6 (F := Ideal) X H0 W0 U0 B0 (ix2 n q) = z0 (weightsOf W0 U0 B0 W1 U1 B1 Wd Bd) (rowOf (val_main_v0 (F := Ideal) X) H0 C0 H1 C1 n) q := by
  rw [val_main_v6_apply, val_main_v3_apply, val_main_v1_apply, val_main_v2_apply, val_main_v5_apply, val_main_v4_apply, Fin.sum_univ_one]
  simp only [show lidx_main_v1 (ix2 n q) (0 : Fin 1) = ix2 n (0 : Fin 1) from funext fun a => Fin.ext (by match a with | ⟨0, _⟩ => rfl | ⟨1, _⟩ => rfl),
    show ridx_main_v1 (ix2 n q) (0 : Fin 1) = ix2 (0 : Fin 1) q from funext fun a => Fin.ext (by match a with | ⟨0, _⟩ => rfl | ⟨1, _⟩ => rfl),
    show ∀ k : Fin 20, lidx_main_v2 (ix2 n q) k = ix2 n k from fun k => funext fun a => Fin.ext (by match a with | ⟨0, _⟩ => rfl | ⟨1, _⟩ => rfl),
    show ∀ k : Fin 20, ridx_main_v2 (ix2 n q) k = ix2 k q from fun k => funext fun a => Fin.ext (by match a with | ⟨0, _⟩ => rfl | ⟨1, _⟩ => rfl),
    show idx_main_v4 (idx_main_v5 (ix2 n q)) = ix1 q from funext fun a => Fin.ext (by match a with | ⟨0, _⟩ => rfl)]
  rfl

/-- The first cell's input gate. -/
theorem gateI0 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v13 (F := Ideal) X H0 W0 U0 B0 (ix2 n j) = Ideal.logistic (z0 (weightsOf W0 U0 B0 W1 U1 B1 Wd Bd) (rowOf (val_main_v0 (F := Ideal) X) H0 C0 H1 C1 n) (colI j)) := by
  rw [val_main_v13_apply, val_main_v12_apply, val_main_cst_0_apply, val_main_v11_apply, val_main_v10_apply, val_main_cst_apply,
    val_main_v9_apply, val_main_v8_apply, val_main_v7_apply,
    show idx_main_v7 (ix2 n j) = ix2 n (colI j) from funext fun a => Fin.ext (by match a with | ⟨0, _⟩ => rfl | ⟨1, _⟩ => rfl),
    z0_apply X H0 C0 H1 C1 W0 U0 B0 W1 U1 B1 Wd Bd]
  exact logistic_expand _

/-- The first cell's forget gate. -/
theorem gateF0 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v20 (F := Ideal) X H0 W0 U0 B0 (ix2 n j) = Ideal.logistic (z0 (weightsOf W0 U0 B0 W1 U1 B1 Wd Bd) (rowOf (val_main_v0 (F := Ideal) X) H0 C0 H1 C1 n) (colF j)) := by
  rw [val_main_v20_apply, val_main_v19_apply, val_main_cst_2_apply, val_main_v18_apply, val_main_v17_apply, val_main_cst_1_apply,
    val_main_v16_apply, val_main_v15_apply, val_main_v14_apply,
    show idx_main_v14 (ix2 n j) = ix2 n (colF j) from funext fun a => Fin.ext (by match a with | ⟨0, _⟩ => rfl | ⟨1, _⟩ => rfl),
    z0_apply X H0 C0 H1 C1 W0 U0 B0 W1 U1 B1 Wd Bd]
  exact logistic_expand _

/-- The first cell's candidate. -/
theorem gateG0 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v22 (F := Ideal) X H0 W0 U0 B0 (ix2 n j) = Ideal.tanh (z0 (weightsOf W0 U0 B0 W1 U1 B1 Wd Bd) (rowOf (val_main_v0 (F := Ideal) X) H0 C0 H1 C1 n) (colG j)) := by
  rw [val_main_v22_apply, val_main_v21_apply,
    show idx_main_v21 (ix2 n j) = ix2 n (colG j) from funext fun a => Fin.ext (by match a with | ⟨0, _⟩ => rfl | ⟨1, _⟩ => rfl),
    z0_apply X H0 C0 H1 C1 W0 U0 B0 W1 U1 B1 Wd Bd]
  rfl

/-- The first cell's output gate. -/
theorem gateO0 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v29 (F := Ideal) X H0 W0 U0 B0 (ix2 n j) = Ideal.logistic (z0 (weightsOf W0 U0 B0 W1 U1 B1 Wd Bd) (rowOf (val_main_v0 (F := Ideal) X) H0 C0 H1 C1 n) (colO j)) := by
  rw [val_main_v29_apply, val_main_v28_apply, val_main_cst_4_apply, val_main_v27_apply, val_main_v26_apply, val_main_cst_3_apply,
    val_main_v25_apply, val_main_v24_apply, val_main_v23_apply,
    show idx_main_v23 (ix2 n j) = ix2 n (colO j) from funext fun a => Fin.ext (by match a with | ⟨0, _⟩ => rfl | ⟨1, _⟩ => rfl),
    z0_apply X H0 C0 H1 C1 W0 U0 B0 W1 U1 B1 Wd Bd]
  exact logistic_expand _

/-- The first cell's new cell state at `(n, j)`. -/
theorem c0n_apply (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v32 (F := Ideal) X H0 C0 W0 U0 B0 (ix2 n j) = c0n (weightsOf W0 U0 B0 W1 U1 B1 Wd Bd) (rowOf (val_main_v0 (F := Ideal) X) H0 C0 H1 C1 n) j := by
  rw [val_main_v32_apply, val_main_v30_apply, val_main_v31_apply, gateF0 X H0 C0 H1 C1 W0 U0 B0 W1 U1 B1 Wd Bd, gateI0 X H0 C0 H1 C1 W0 U0 B0 W1 U1 B1 Wd Bd, gateG0 X H0 C0 H1 C1 W0 U0 B0 W1 U1 B1 Wd Bd]
  rfl

/-- The first cell's new hidden state at `(n, j)`. -/
theorem h0n_apply (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v34 (F := Ideal) X H0 C0 W0 U0 B0 (ix2 n j) = h0n (weightsOf W0 U0 B0 W1 U1 B1 Wd Bd) (rowOf (val_main_v0 (F := Ideal) X) H0 C0 H1 C1 n) j := by
  rw [val_main_v34_apply, val_main_v33_apply, gateO0 X H0 C0 H1 C1 W0 U0 B0 W1 U1 B1 Wd Bd, c0n_apply X H0 C0 H1 C1 W0 U0 B0 W1 U1 B1 Wd Bd]
  rfl

/-! ## The second cell -/

/-- The second pre-activation at `(n, q)`. -/
theorem z1_apply (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (q : Fin 80) :
    val_main_v40 (F := Ideal) X H0 C0 H1 W0 U0 B0 W1 U1 B1 (ix2 n q) = z1 (weightsOf W0 U0 B0 W1 U1 B1 Wd Bd) (rowOf (val_main_v0 (F := Ideal) X) H0 C0 H1 C1 n) q := by
  rw [val_main_v40_apply, val_main_v37_apply, val_main_v35_apply, val_main_v36_apply, val_main_v39_apply, val_main_v38_apply]
  simp only [show ∀ k : Fin 20, lidx_main_v35 (ix2 n q) k = ix2 n k from fun k => funext fun a => Fin.ext (by match a with | ⟨0, _⟩ => rfl | ⟨1, _⟩ => rfl), h0n_apply X H0 C0 H1 C1 W0 U0 B0 W1 U1 B1 Wd Bd,
    show ∀ k : Fin 20, ridx_main_v35 (ix2 n q) k = ix2 k q from fun k => funext fun a => Fin.ext (by match a with | ⟨0, _⟩ => rfl | ⟨1, _⟩ => rfl),
    show ∀ k : Fin 20, lidx_main_v36 (ix2 n q) k = ix2 n k from fun k => funext fun a => Fin.ext (by match a with | ⟨0, _⟩ => rfl | ⟨1, _⟩ => rfl),
    show ∀ k : Fin 20, ridx_main_v36 (ix2 n q) k = ix2 k q from fun k => funext fun a => Fin.ext (by match a with | ⟨0, _⟩ => rfl | ⟨1, _⟩ => rfl),
    show idx_main_v38 (idx_main_v39 (ix2 n q)) = ix1 q from funext fun a => Fin.ext (by match a with | ⟨0, _⟩ => rfl)]
  rfl

/-- The second cell's input gate. -/
theorem gateI1 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v47 (F := Ideal) X H0 C0 H1 W0 U0 B0 W1 U1 B1 (ix2 n j) = Ideal.logistic (z1 (weightsOf W0 U0 B0 W1 U1 B1 Wd Bd) (rowOf (val_main_v0 (F := Ideal) X) H0 C0 H1 C1 n) (colI j)) := by
  rw [val_main_v47_apply, val_main_v46_apply, val_main_cst_6_apply, val_main_v45_apply, val_main_v44_apply, val_main_cst_5_apply,
    val_main_v43_apply, val_main_v42_apply, val_main_v41_apply,
    show idx_main_v41 (ix2 n j) = ix2 n (colI j) from funext fun a => Fin.ext (by match a with | ⟨0, _⟩ => rfl | ⟨1, _⟩ => rfl),
    z1_apply X H0 C0 H1 C1 W0 U0 B0 W1 U1 B1 Wd Bd]
  exact logistic_expand _

/-- The second cell's forget gate. -/
theorem gateF1 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v54 (F := Ideal) X H0 C0 H1 W0 U0 B0 W1 U1 B1 (ix2 n j) = Ideal.logistic (z1 (weightsOf W0 U0 B0 W1 U1 B1 Wd Bd) (rowOf (val_main_v0 (F := Ideal) X) H0 C0 H1 C1 n) (colF j)) := by
  rw [val_main_v54_apply, val_main_v53_apply, val_main_cst_8_apply, val_main_v52_apply, val_main_v51_apply, val_main_cst_7_apply,
    val_main_v50_apply, val_main_v49_apply, val_main_v48_apply,
    show idx_main_v48 (ix2 n j) = ix2 n (colF j) from funext fun a => Fin.ext (by match a with | ⟨0, _⟩ => rfl | ⟨1, _⟩ => rfl),
    z1_apply X H0 C0 H1 C1 W0 U0 B0 W1 U1 B1 Wd Bd]
  exact logistic_expand _

/-- The second cell's candidate. -/
theorem gateG1 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v56 (F := Ideal) X H0 C0 H1 W0 U0 B0 W1 U1 B1 (ix2 n j) = Ideal.tanh (z1 (weightsOf W0 U0 B0 W1 U1 B1 Wd Bd) (rowOf (val_main_v0 (F := Ideal) X) H0 C0 H1 C1 n) (colG j)) := by
  rw [val_main_v56_apply, val_main_v55_apply,
    show idx_main_v55 (ix2 n j) = ix2 n (colG j) from funext fun a => Fin.ext (by match a with | ⟨0, _⟩ => rfl | ⟨1, _⟩ => rfl),
    z1_apply X H0 C0 H1 C1 W0 U0 B0 W1 U1 B1 Wd Bd]
  rfl

/-- The second cell's output gate. -/
theorem gateO1 (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v63 (F := Ideal) X H0 C0 H1 W0 U0 B0 W1 U1 B1 (ix2 n j) = Ideal.logistic (z1 (weightsOf W0 U0 B0 W1 U1 B1 Wd Bd) (rowOf (val_main_v0 (F := Ideal) X) H0 C0 H1 C1 n) (colO j)) := by
  rw [val_main_v63_apply, val_main_v62_apply, val_main_cst_10_apply, val_main_v61_apply, val_main_v60_apply, val_main_cst_9_apply,
    val_main_v59_apply, val_main_v58_apply, val_main_v57_apply,
    show idx_main_v57 (ix2 n j) = ix2 n (colO j) from funext fun a => Fin.ext (by match a with | ⟨0, _⟩ => rfl | ⟨1, _⟩ => rfl),
    z1_apply X H0 C0 H1 C1 W0 U0 B0 W1 U1 B1 Wd Bd]
  exact logistic_expand _

/-- The second cell's new cell state at `(n, j)`. -/
theorem c1n_apply (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v66 (F := Ideal) X H0 C0 H1 C1 W0 U0 B0 W1 U1 B1 (ix2 n j) = c1n (weightsOf W0 U0 B0 W1 U1 B1 Wd Bd) (rowOf (val_main_v0 (F := Ideal) X) H0 C0 H1 C1 n) j := by
  rw [val_main_v66_apply, val_main_v64_apply, val_main_v65_apply, gateF1 X H0 C0 H1 C1 W0 U0 B0 W1 U1 B1 Wd Bd, gateI1 X H0 C0 H1 C1 W0 U0 B0 W1 U1 B1 Wd Bd, gateG1 X H0 C0 H1 C1 W0 U0 B0 W1 U1 B1 Wd Bd]
  rfl

/-- The second cell's new hidden state at `(n, j)`. -/
theorem h1n_apply (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (j : Fin 20) :
    val_main_v68 (F := Ideal) X H0 C0 H1 C1 W0 U0 B0 W1 U1 B1 (ix2 n j) = h1n (weightsOf W0 U0 B0 W1 U1 B1 Wd Bd) (rowOf (val_main_v0 (F := Ideal) X) H0 C0 H1 C1 n) j := by
  rw [val_main_v68_apply, val_main_v67_apply, gateO1 X H0 C0 H1 C1 W0 U0 B0 W1 U1 B1 Wd Bd, c1n_apply X H0 C0 H1 C1 W0 U0 B0 W1 U1 B1 Wd Bd]
  rfl

/-! ## The head -/

/-- The head's output column at row `n`. -/
theorem out_apply (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) (n : Fin 2097152) (u : Fin 1) :
    val_main_v72 (F := Ideal) X H0 C0 H1 C1 W0 U0 B0 W1 U1 B1 Wd Bd (ix2 n u) = out (weightsOf W0 U0 B0 W1 U1 B1 Wd Bd) (rowOf (val_main_v0 (F := Ideal) X) H0 C0 H1 C1 n) := by
  obtain rfl : u = 0 := Subsingleton.elim _ _
  rw [val_main_v72_apply, val_main_v69_apply, val_main_v71_apply, val_main_v70_apply]
  simp only [show ∀ k : Fin 20, lidx_main_v69 (ix2 n (0 : Fin 1)) k = ix2 n k from fun k => funext fun a => Fin.ext (by match a with | ⟨0, _⟩ => rfl | ⟨1, _⟩ => rfl), h1n_apply X H0 C0 H1 C1 W0 U0 B0 W1 U1 B1 Wd Bd,
    show ∀ k : Fin 20, ridx_main_v69 (ix2 n (0 : Fin 1)) k = ix2 k (0 : Fin 1) from fun k => funext fun a => Fin.ext (by match a with | ⟨0, _⟩ => rfl | ⟨1, _⟩ => rfl),
    show idx_main_v70 (idx_main_v71 (ix2 n (0 : Fin 1))) = ix1 (0 : Fin 1) from funext fun a => Fin.ext (by match a with | ⟨0, _⟩ => rfl)]
  rfl

/-! ## The five results as whole arrays -/

theorem arrOut_eq (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) :
    val_main_v72 (F := Ideal) X H0 C0 H1 C1 W0 U0 B0 W1 U1 B1 Wd Bd = arrOut (weightsOf W0 U0 B0 W1 U1 B1 Wd Bd) (val_main_v0 (F := Ideal) X) H0 C0 H1 C1 := by
  funext i
  obtain ⟨n, u, rfl⟩ : ∃ (n : Fin 2097152) (u : Fin 1), i = ix2 n u := ⟨i 0, i 1, eq_ix2 i⟩
  exact out_apply X H0 C0 H1 C1 W0 U0 B0 W1 U1 B1 Wd Bd n u

theorem arrH0_eq (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) :
    val_main_v34 (F := Ideal) X H0 C0 W0 U0 B0 = arrH0 (weightsOf W0 U0 B0 W1 U1 B1 Wd Bd) (val_main_v0 (F := Ideal) X) H0 C0 H1 C1 := by
  funext i
  obtain ⟨n, j, rfl⟩ : ∃ (n : Fin 2097152) (j : Fin 20), i = ix2 n j := ⟨i 0, i 1, eq_ix2 i⟩
  exact h0n_apply X H0 C0 H1 C1 W0 U0 B0 W1 U1 B1 Wd Bd n j

theorem arrC0_eq (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) :
    val_main_v32 (F := Ideal) X H0 C0 W0 U0 B0 = arrC0 (weightsOf W0 U0 B0 W1 U1 B1 Wd Bd) (val_main_v0 (F := Ideal) X) H0 C0 H1 C1 := by
  funext i
  obtain ⟨n, j, rfl⟩ : ∃ (n : Fin 2097152) (j : Fin 20), i = ix2 n j := ⟨i 0, i 1, eq_ix2 i⟩
  exact c0n_apply X H0 C0 H1 C1 W0 U0 B0 W1 U1 B1 Wd Bd n j

theorem arrH1_eq (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) :
    val_main_v68 (F := Ideal) X H0 C0 H1 C1 W0 U0 B0 W1 U1 B1 = arrH1 (weightsOf W0 U0 B0 W1 U1 B1 Wd Bd) (val_main_v0 (F := Ideal) X) H0 C0 H1 C1 := by
  funext i
  obtain ⟨n, j, rfl⟩ : ∃ (n : Fin 2097152) (j : Fin 20), i = ix2 n j := ⟨i 0, i 1, eq_ix2 i⟩
  exact h1n_apply X H0 C0 H1 C1 W0 U0 B0 W1 U1 B1 Wd Bd n j

theorem arrC1_eq (X : (⟨S2048x1024, .f32⟩ : BufTy).Contents (Elt Ideal)) (H0 C0 H1 C1 : (⟨S2097152x20, .f32⟩ : BufTy).Contents (Elt Ideal)) (W0 : (⟨S1x80, .f32⟩ : BufTy).Contents (Elt Ideal)) (U0 : (⟨S20x80, .f32⟩ : BufTy).Contents (Elt Ideal)) (B0 : (⟨S80, .f32⟩ : BufTy).Contents (Elt Ideal)) (W1 U1 : (⟨S20x80, .f32⟩ : BufTy).Contents (Elt Ideal)) (B1 : (⟨S80, .f32⟩ : BufTy).Contents (Elt Ideal)) (Wd : (⟨S20x1, .f32⟩ : BufTy).Contents (Elt Ideal)) (Bd : (⟨S1, .f32⟩ : BufTy).Contents (Elt Ideal)) :
    val_main_v66 (F := Ideal) X H0 C0 H1 C1 W0 U0 B0 W1 U1 B1 = arrC1 (weightsOf W0 U0 B0 W1 U1 B1 Wd Bd) (val_main_v0 (F := Ideal) X) H0 C0 H1 C1 := by
  funext i
  obtain ⟨n, j, rfl⟩ : ∃ (n : Fin 2097152) (j : Fin 20), i = ix2 n j := ⟨i 0, i 1, eq_ix2 i⟩
  exact c1n_apply X H0 C0 H1 C1 W0 U0 B0 W1 U1 B1 Wd Bd n j

end Cert.ReferenceIdeal.RefSpec

end
-- ==== Proof.lean ====
/-
  The certificate's claims.

  Three frames: the word-level kernel and its idealization by their generated frame runs, the reference by its generated
  run with the results dropped.  The idealization rewrote no operation, so `preserves` asks nothing.  The value claim: the
  kernel's program ends with its five results at one function each of the argument arrays (the row-tiled blocks of the 1024
  grid points cover every row, and each block's entries are the LSTM row functions of that row of the arguments); the
  reference's run ends with its five results at the same functions, stage by stage; from memories that agree on the
  arguments the two are equal.  Nothing in the argument needs an entry to be finite: a sum over one term is that term, a
  change of float format is the identity, and the logistic function's expansion is the logistic function on every
  extended real.
-/
import proofs.«139615_j81449759801976_2_alg».proof.Defs
import proofs.«139615_j81449759801976_2_alg».proof.Proof.Gen.Kernel
import proofs.«139615_j81449759801976_2_alg».proof.Proof.Gen.Kernel.Skeleton
import proofs.«139615_j81449759801976_2_alg».proof.Proof.Gen.Kernel.Launch
import proofs.«139615_j81449759801976_2_alg».proof.Proof.Gen.Kernel.Points
import proofs.«139615_j81449759801976_2_alg».proof.Proof.Gen.Kernel.Frame
import proofs.«139615_j81449759801976_2_alg».proof.Proof.Gen.KernelIdeal
import proofs.«139615_j81449759801976_2_alg».proof.Proof.Gen.KernelIdeal.Skeleton
import proofs.«139615_j81449759801976_2_alg».proof.Proof.Gen.KernelIdeal.Launch
import proofs.«139615_j81449759801976_2_alg».proof.Proof.Gen.KernelIdeal.Points
import proofs.«139615_j81449759801976_2_alg».proof.Proof.Gen.KernelIdeal.Frame
import proofs.«139615_j81449759801976_2_alg».proof.Proof.Gen.ReferenceIdeal
import proofs.«139615_j81449759801976_2_alg».proof.Proof.Gen.Pre_finite_inputs
import proofs.«139615_j81449759801976_2_alg».proof.Proof.Gen.ReferenceIdeal.Run
import proofs.«139615_j81449759801976_2_alg».proof.Proof.Gen.ReferenceIdeal.Read
import proofs.«139615_j81449759801976_2_alg».proof.Proof.Outputs
import proofs.«139615_j81449759801976_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its generated run, the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-! ## The reference's stages at arguments that agree with the kernel's are the kernel's result functions -/

/-- The head's output column. -/
theorem res_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    Cert.ReferenceIdeal.Read.val_main_v72 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = Cert.KernelIdeal.Outputs.gOut m c := by
  rw [Cert.ReferenceIdeal.RefSpec.arrOut_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)), a0, a1, a2, a3, a4, a5, a6, a7, a8, a9, a10, a11, a12]
  rfl

/-- The first cell's new hidden state. -/
theorem res_h0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    Cert.ReferenceIdeal.Read.val_main_v34 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = Cert.KernelIdeal.Outputs.gH0 m c := by
  rw [Cert.ReferenceIdeal.RefSpec.arrH0_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)), a0, a1, a2, a3, a4, a5, a6, a7, a8, a9, a10, a11, a12]
  rfl

/-- The first cell's new cell state. -/
theorem res_c0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    Cert.ReferenceIdeal.Read.val_main_v32 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = Cert.KernelIdeal.Outputs.gC0 m c := by
  rw [Cert.ReferenceIdeal.RefSpec.arrC0_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)), a0, a1, a2, a3, a4, a5, a6, a7, a8, a9, a10, a11, a12]
  rfl

/-- The second cell's new hidden state. -/
theorem res_h1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    Cert.ReferenceIdeal.Read.val_main_v68 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = Cert.KernelIdeal.Outputs.gH1 m c := by
  rw [Cert.ReferenceIdeal.RefSpec.arrH1_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)), a0, a1, a2, a3, a4, a5, a6, a7, a8, a9, a10, a11, a12]
  rfl

/-- The second cell's new cell state. -/
theorem res_c1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    Cert.ReferenceIdeal.Read.val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = Cert.KernelIdeal.Outputs.gC1 m c := by
  rw [Cert.ReferenceIdeal.RefSpec.arrC1_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)), a0, a1, a2, a3, a4, a5, a6, a7, a8, a9, a10, a11, a12]
  rfl

/-- The two programs, from memories that agree on the arguments, end with equal results. -/
theorem algebraic : Cert.algebraic_KernelIdeal_ReferenceIdeal := by
  intro m ρ m' ρ' _ hagree
  refine ⟨fun c => shapeCast _ (Cert.KernelIdeal.Outputs.gOut m c) Cert.KernelIdeal.Facts₀.shapeCasts_S2097152x1_S2048x1024,
    fun c => Cert.KernelIdeal.Outputs.gH0 m c, fun c => Cert.KernelIdeal.Outputs.gC0 m c,
    fun c => Cert.KernelIdeal.Outputs.gH1 m c, fun c => Cert.KernelIdeal.Outputs.gC1 m c,
    Cert.KernelIdeal.Outputs.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12⟩ := hagree c
  obtain ⟨r0, r1, r2, r3, r4, rest⟩ := h c
  refine ⟨r0.trans ?_, r1.trans ?_, r2.trans ?_, r3.trans ?_, r4.trans ?_, rest⟩
  · refine (Cert.ReferenceIdeal.Read.val_main_v73_eq m' c).trans ?_
    exact congrArg (fun v => shapeCast _ v Cert.KernelIdeal.Facts₀.shapeCasts_S2097152x1_S2048x1024)
      (res_out m m' c a0 a1 a2 a3 a4 a5 a6 a7 a8 a9 a10 a11 a12)
  · exact (Cert.ReferenceIdeal.Read.val_main_v34_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans (res_h0 m m' c a0 a1 a2 a3 a4 a5 a6 a7 a8 a9 a10 a11 a12)
  · exact (Cert.ReferenceIdeal.Read.val_main_v32_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans (res_c0 m m' c a0 a1 a2 a3 a4 a5 a6 a7 a8 a9 a10 a11 a12)
  · exact (Cert.ReferenceIdeal.Read.val_main_v68_eq m' c).trans (res_h1 m m' c a0 a1 a2 a3 a4 a5 a6 a7 a8 a9 a10 a11 a12)
  · exact (Cert.ReferenceIdeal.Read.val_main_v66_eq m' c).trans (res_c1 m m' c a0 a1 a2 a3 a4 a5 a6 a7 a8 a9 a10 a11 a12)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
